-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S32x64 : Shape := ⟨2, ![32, 64]⟩
abbrev S1x64 : Shape := ⟨2, ![1, 64]⟩
abbrev S64x16 : Shape := ⟨2, ![64, 16]⟩
abbrev S1x16 : Shape := ⟨2, ![1, 16]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S1x64 : S_.BroadcastsInDim S1x64 (![] : Fin 0 → Fin S1x64.rank)
  reducesTo_S1x64_S_d0_1 : S1x64.ReducesTo [0, 1] S_
  bcast_S_S64x16 : S_.BroadcastsInDim S64x16 (![] : Fin 0 → Fin S64x16.rank)
  reducesTo_S64x16_S_d0_1 : S64x16.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg4 : FVec F S1x16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  main_v23

def fn {F : FTy → Type} [FloatOps F] (main_arg0 : FVec F S262144x32 .f32) (main_arg1 : FVec F S32x64 .f32) (main_arg2 : FVec F S1x64 .f32) (main_arg3 : FVec F S64x16 .f32) (main_arg4 : FVec F S1x16 .f32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_v13 main_v16
-- ==== Kernel.lean ====
abbrev S262144x32 : Shape := ⟨2, ![262144, 32]⟩
abbrev S32x64 : Shape := ⟨2, ![32, 64]⟩
abbrev S1x64 : Shape := ⟨2, ![1, 64]⟩
abbrev S64x16 : Shape := ⟨2, ![64, 16]⟩
abbrev S1x16 : Shape := ⟨2, ![1, 16]⟩
abbrev S32x262144 : Shape := ⟨2, ![32, 262144]⟩
abbrev S16x64 : Shape := ⟨2, ![16, 64]⟩
abbrev S16x262144 : Shape := ⟨2, ![16, 262144]⟩
abbrev S32x65536 : Shape := ⟨2, ![32, 65536]⟩
abbrev S16x65536 : Shape := ⟨2, ![16, 65536]⟩
abbrev S64x1 : Shape := ⟨2, ![64, 1]⟩
abbrev S16 : Shape := ⟨1, ![16]⟩
abbrev S16x1 : Shape := ⟨2, ![16, 1]⟩
abbrev S64x65536 : Shape := ⟨2, ![64, 65536]⟩
abbrev S262144x16 : Shape := ⟨2, ![262144, 16]⟩

abbrev nBuf : Space → Nat
  | .hbm => 9
  | .vmem => 8
  | .smem => 0
  | _ => 0

abbrev bufTy : (tb : Table) → Fin (tcTables nBuf tb) → BufTy
  | .hbm, ⟨0, _⟩ => ⟨S262144x32, .f32⟩
  | .hbm, ⟨1, _⟩ => ⟨S32x64, .f32⟩
  | .hbm, ⟨2, _⟩ => ⟨S1x64, .f32⟩
  | .hbm, ⟨3, _⟩ => ⟨S64x16, .f32⟩
  | .hbm, ⟨4, _⟩ => ⟨S1x16, .f32⟩
  | .hbm, ⟨5, _⟩ => ⟨S32x262144, .f32⟩
  | .hbm, ⟨6, _⟩ => ⟨S16x64, .f32⟩
  | .hbm, ⟨7, _⟩ => ⟨S16x262144, .f32⟩
  | .hbm, ⟨8, _⟩ => ⟨S262144x16, .f32⟩
  | .local _ .vmem, ⟨0, _⟩ => ⟨S32x65536, .f32⟩
  | .local _ .vmem, ⟨1, _⟩ => ⟨S32x65536, .f32⟩
  | .local _ .vmem, ⟨2, _⟩ => ⟨S32x64, .f32⟩
  | .local _ .vmem, ⟨3, _⟩ => ⟨S1x64, .f32⟩
  | .local _ .vmem, ⟨4, _⟩ => ⟨S16x64, .f32⟩
  | .local _ .vmem, ⟨5, _⟩ => ⟨S1x16, .f32⟩
  | .local _ .vmem, ⟨6, _⟩ => ⟨S16x65536, .f32⟩
  | .local _ .vmem, ⟨7, _⟩ => ⟨S16x65536, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x65536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S262144x32_S32x262144_1_0 : S262144x32.Transposes [1, 0] S32x262144
  transposes_S64x16_S16x64_1_0 : S64x16.Transposes [1, 0] S16x64
  inb_S32x64_S32x64_0_0 : ∀ a, (![0, 0] : Fin 2 → Nat) a + S32x64.size a ≤ S32x64.size a
  h_S32x64 : 0 < S32x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  transposes_S1x64_p1_0_S64x1 : S1x64.Transposes [1, 0] S64x1
  inb_S16x64_S16x64_0_0 : ∀ a, (![0, 0] : Fin 2 → Nat) a + S16x64.size a ≤ S16x64.size a
  h_S16x64 : 0 < S16x64.numel
  shapeCasts_S16x64_S16x64 : S16x64.ShapeCasts S16x64
  reduces_S16x64_S16 : S16x64.Reduces [1] S16
  shapeCasts_S16_S16x1 : S16.ShapeCasts S16x1
  inb_S1x16_S1x16_0_0 : ∀ a, (![0, 0] : Fin 2 → Nat) a + S1x16.size a ≤ S1x16.size a
  h_S1x16 : 0 < S1x16.numel
  transposes_S1x16_p1_0_S16x1 : S1x16.Transposes [1, 0] S16x1
  inb_S32x65536_S32x65536_0_0 : ∀ a, (![0, 0] : Fin 2 → Nat) a + S32x65536.size a ≤ S32x65536.size a
  h_S32x65536 : 0 < S32x65536.numel
  shapeCasts_S32x65536_S32x65536 : S32x65536.ShapeCasts S32x65536
  broadcasts_S64x1_S64x65536 : S64x1.Broadcasts S64x65536
  broadcasts_S16x1_S16x65536 : S16x1.Broadcasts S16x65536
  inb_S16x65536_S16x65536_0_0 : ∀ a, (![0, 0] : Fin 2 → Nat) a + S16x65536.size a ≤ S16x65536.size a
  h_S16x65536 : 0 < S16x65536.numel
  transposes_S16x262144_S262144x16_1_0 : S16x262144.Transposes [1, 0] S262144x16
  dot_S32x64_S32x65536_S64x65536_0_0_1_1_n_n_wf : DotDims.WF S32x64 S32x65536 S64x65536 [0] [0] [1] [1] [] []
  dot_S16x64_S64x65536_S16x65536_1_0_0_1_n_n_wf : DotDims.WF S16x64 S64x65536 S16x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x65536.size a ≤ S32x262144.size a
  hwx0_0 : ∀ i : grid0.Coords, EltTy.bits .f32 = 32 ∨ (Rect.block (s := S32x262144) S32x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x65536.size a ≤ S16x262144.size a
  hwx0_5 : ∀ i : grid0.Coords, EltTy.bits .f32 = 32 ∨ (Rect.block (s := S16x262144) S16x65536.size (cc0_transform_5 i) (hinb0_5 i)).WholeWords (EltTy.packing .f32)

variable [Facts₀]

def dot_S32x64_S32x65536_S64x65536_0_0_1_1_n_n : DotDims S32x64 S32x65536 S64x65536 where
  lhsContracting := [0]
  rhsContracting := [0]
  lhsNonContracting := [1]
  rhsNonContracting := [1]
  lhsBatch := []
  rhsBatch := []
  wf := dot_S32x64_S32x65536_S64x65536_0_0_1_1_n_n_wf
def dot_S16x64_S64x65536_S16x65536_1_0_0_1_n_n : DotDims S16x64 S64x65536 S16x65536 where
  lhsContracting := [1]
  rhsContracting := [0]
  lhsNonContracting := [0]
  rhsNonContracting := [1]
  lhsBatch := []
  rhsBatch := []
  wf := dot_S16x64_S64x65536_S16x65536_1_0_0_1_n_n_wf

abbrev win0_0 : Pipeline.Window sig grid0 :=
  Pipeline.Window.ofSpec (Memref.whole main_v0) S32x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x65536.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x32 : Shape := ⟨2, ![262144, 32]⟩
abbrev S32x64 : Shape := ⟨2, ![32, 64]⟩
abbrev S1x64 : Shape := ⟨2, ![1, 64]⟩
abbrev S64x16 : Shape := ⟨2, ![64, 16]⟩
abbrev S1x16 : Shape := ⟨2, ![1, 16]⟩
abbrev S32768x256 : Shape := ⟨2, ![32768, 256]⟩
abbrev S8x8 : Shape := ⟨2, ![8, 8]⟩
abbrev S_ : Shape := ⟨0, ![]⟩
abbrev S8x1x8x1 : Shape := ⟨4, ![8, 1, 8, 1]⟩
abbrev S1x32x1x64 : Shape := ⟨4, ![1, 32, 1, 64]⟩
abbrev S8x32x8x64 : Shape := ⟨4, ![8, 32, 8, 64]⟩
abbrev S256x512 : Shape := ⟨2, ![256, 512]⟩
abbrev S1x64x1x16 : Shape := ⟨4, ![1, 64, 1, 16]⟩
abbrev S8x64x8x16 : Shape := ⟨4, ![8, 64, 8, 16]⟩
abbrev S512x128 : Shape := ⟨2, ![512, 128]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x1x16 : Shape := ⟨4, ![1, 1, 1, 16]⟩
abbrev S1x1x8x16 : Shape := ⟨4, ![1, 1, 8, 16]⟩
abbrev S1x128 : Shape := ⟨2, ![1, 128]⟩
abbrev S32768x128 : Shape := ⟨2, ![32768, 128]⟩
abbrev S1024x256 : Shape := ⟨2, ![1024, 256]⟩
abbrev S1024x128 : Shape := ⟨2, ![1024, 128]⟩
abbrev S1024x512 : Shape := ⟨2, ![1024, 512]⟩
abbrev S262144x16 : Shape := ⟨2, ![262144, 16]⟩

abbrev nBuf : Space → Nat
  | .hbm => 40
  | .vmem => 8
  | .smem => 0
  | _ => 0

abbrev bufTy : (tb : Table) → Fin (tcTables nBuf tb) → BufTy
  | .hbm, ⟨0, _⟩ => ⟨S262144x32, .f32⟩
  | .hbm, ⟨1, _⟩ => ⟨S32x64, .f32⟩
  | .hbm, ⟨2, _⟩ => ⟨S1x64, .f32⟩
  | .hbm, ⟨3, _⟩ => ⟨S64x16, .f32⟩
  | .hbm, ⟨4, _⟩ => ⟨S1x16, .f32⟩
  | .hbm, ⟨5, _⟩ => ⟨S32768x256, .f32⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S8x1x8x1, .f32⟩
  | .hbm, ⟨14, _⟩ => ⟨S1x32x1x64, .f32⟩
  | .hbm, ⟨15, _⟩ => ⟨S8x32x8x64, .f32⟩
  | .hbm, ⟨16, _⟩ => ⟨S8x32x8x64, .f32⟩
  | .hbm, ⟨17, _⟩ => ⟨S8x32x8x64, .f32⟩
  | .hbm, ⟨18, _⟩ => ⟨S256x512, .f32⟩
  | .hbm, ⟨19, _⟩ => ⟨S8x8, .i32⟩
  | .hbm, ⟨20, _⟩ => ⟨S8x8, .i32⟩
  | .hbm, ⟨21, _⟩ => ⟨S_, .i32⟩
  | .hbm, ⟨22, _⟩ => ⟨S8x8, .i32⟩
  | .hbm, ⟨23, _⟩ => ⟨S8x8, .i32⟩
  | .hbm, ⟨24, _⟩ => ⟨S8x8, .i1⟩
  | .hbm, ⟨25, _⟩ => ⟨S8x8, .f32⟩
  | .hbm, ⟨26, _⟩ => ⟨S8x1x8x1, .f32⟩
  | .hbm, ⟨27, _⟩ => ⟨S1x64x1x16, .f32⟩
  | .hbm, ⟨28, _⟩ => ⟨S8x64x8x16, .f32⟩
  | .hbm, ⟨29, _⟩ => ⟨S8x64x8x16, .f32⟩
  | .hbm, ⟨30, _⟩ => ⟨S8x64x8x16, .f32⟩
  | .hbm, ⟨31, _⟩ => ⟨S512x128, .f32⟩
  | .hbm, ⟨32, _⟩ => ⟨S1x1x1x64, .f32⟩
  | .hbm, ⟨33, _⟩ => ⟨S1x1x8x64, .f32⟩
  | .hbm, ⟨34, _⟩ => ⟨S1x512, .f32⟩
  | .hbm, ⟨35, _⟩ => ⟨S1x1x1x16, .f32⟩
  | .hbm, ⟨36, _⟩ => ⟨S1x1x8x16, .f32⟩
  | .hbm, ⟨37, _⟩ => ⟨S1x128, .f32⟩
  | .hbm, ⟨38, _⟩ => ⟨S32768x128, .f32⟩
  | .hbm, ⟨39, _⟩ => ⟨S262144x16, .f32⟩
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S262144x32_S32768x256 : S262144x32.ShapeCasts S32768x256
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S32x64_S1x32x1x64_1_3 : S32x64.BroadcastsInDim S1x32x1x64 (![1, 3] : Fin 2 → Fin S1x32x1x64.rank)
  bcast_S8x1x8x1_S8x32x8x64_0_1_2_3 : S8x1x8x1.BroadcastsInDim S8x32x8x64 (![0, 1, 2, 3] : Fin 4 → Fin S8x32x8x64.rank)
  bcast_S1x32x1x64_S8x32x8x64_0_1_2_3 : S1x32x1x64.BroadcastsInDim S8x32x8x64 (![0, 1, 2, 3] : Fin 4 → Fin S8x32x8x64.rank)
  shapeCasts_S8x32x8x64_S256x512 : S8x32x8x64.ShapeCasts S256x512
  bcast_S64x16_S1x64x1x16_1_3 : S64x16.BroadcastsInDim S1x64x1x16 (![1, 3] : Fin 2 → Fin S1x64x1x16.rank)
  bcast_S8x1x8x1_S8x64x8x16_0_1_2_3 : S8x1x8x1.BroadcastsInDim S8x64x8x16 (![0, 1, 2, 3] : Fin 4 → Fin S8x64x8x16.rank)
  bcast_S1x64x1x16_S8x64x8x16_0_1_2_3 : S1x64x1x16.BroadcastsInDim S8x64x8x16 (![0, 1, 2, 3] : Fin 4 → Fin S8x64x8x16.rank)
  shapeCasts_S8x64x8x16_S512x128 : S8x64x8x16.ShapeCasts S512x128
  shapeCasts_S1x64_S1x1x1x64 : S1x64.ShapeCasts S1x1x1x64
  bcast_S1x1x1x64_S1x1x8x64_0_1_2_3 : S1x1x1x64.BroadcastsInDim S1x1x8x64 (![0, 1, 2, 3] : Fin 4 → Fin S1x1x8x64.rank)
  shapeCasts_S1x1x8x64_S1x512 : S1x1x8x64.ShapeCasts S1x512
  shapeCasts_S1x16_S1x1x1x16 : S1x16.ShapeCasts S1x1x1x16
  bcast_S1x1x1x16_S1x1x8x16_0_1_2_3 : S1x1x1x16.BroadcastsInDim S1x1x8x16 (![0, 1, 2, 3] : Fin 4 → Fin S1x1x8x16.rank)
  shapeCasts_S1x1x8x16_S1x128 : S1x1x8x16.ShapeCasts S1x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S32768x128_S262144x16 : S32768x128.ShapeCasts S262144x16
  dot_S1024x256_S256x512_S1024x512_1_0_0_1_n_n_wf : DotDims.WF S1024x256 S256x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S32768x128.size a
  hwx0_5 : ∀ i : grid0.Coords, EltTy.bits .f32 = 32 ∨ (Rect.block (s := S32768x128) S1024x128.size (cc0_transform_5 i) (hinb0_5 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibColumns.lean ====
/-
  Two layout operations on a column, read at an index: a vector of length `a` cast to an `a × 1` column,
  and an `a × 1` column broadcast along the rows of an `a × b` array.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KBody.lean ====
/-
  The arithmetic of the transposed kernel's body, read at one entry of the output block.

  With W1 the [32, 64] first-layer weights, B1 the [1, 64] first bias, W2T the [16, 64] transposed second-layer
  weights, B2 the [1, 16] second bias and XT a [32, N] block of transposed inputs, the body stores, at row o and
  column j,

      sum over h of (W2T[o,h] * 1/2) * tanh( (sum over d of (W1[d,h] * 1/2) * XT[d,j]) + 1/2 * B1[0,h] )
        + ( 1/2 * (sum over h of W2T[o,h]) + B2[0,o] ).

  Roundings to bf16 on the way into the two matrix products are the identity on extended reals; each matrix product
  into a zero accumulator is a plain finite sum over its one contracted axis.
-/
import proofs.«106375_g2000504021090499_pallasbulk_1237_19_alg».proof.Proof.Gen.KernelIdeal.Skeleton
import proofs.«106375_g2000504021090499_pallasbulk_1237_19_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KBody

open Idealize.ShloMosaic Idealize.ShloMosaic.ValueIdx Cert.KernelIdeal Cert.KernelIdeal.Gen

/-- The dimension numbers of the first product: both operands contract their axis 0. -/
abbrev D1 := dot_S32x64_S32x65536_S64x65536_0_0_1_1_n_n
/-- The dimension numbers of the second product: an ordinary matrix product. -/
abbrev D2 := dot_S16x64_S64x65536_S16x65536_1_0_0_1_n_n

/-! ## The operand indices of the two products, coordinate by coordinate -/

theorem d1_lhs_1 (i : S64x65536.Idx) (q : D1.contr.Idx) : (D1.lhsIdx i q 1).val = (i 0).val := by
  unfold DotDims.lhsIdx
  rw [dif_neg (show ¬(1 : Fin S32x64.rank) ∈ D1.lhsBatch by decide), dif_pos (show (1 : Fin S32x64.rank) ∈ D1.lhsNonContracting by decide)]
  rfl

theorem d1_rhs_1 (i : S64x65536.Idx) (q : D1.contr.Idx) : (D1.rhsIdx i q 1).val = (i 1).val := by
  unfold DotDims.rhsIdx
  rw [dif_neg (show ¬(1 : Fin S32x65536.rank) ∈ D1.rhsBatch by decide), dif_pos (show (1 : Fin S32x65536.rank) ∈ D1.rhsNonContracting by decide)]
  rfl

theorem d2_lhs_0 (i : S16x65536.Idx) (q : D2.contr.Idx) : (D2.lhsIdx i q 0).val = (i 0).val := by
  unfold DotDims.lhsIdx
  rw [dif_neg (show ¬(0 : Fin S16x64.rank) ∈ D2.lhsBatch by decide), dif_pos (show (0 : Fin S16x64.rank) ∈ D2.lhsNonContracting by decide)]
  rfl

theorem d2_rhs_1 (i : S16x65536.Idx) (q : D2.contr.Idx) : (D2.rhsIdx i q 1).val = (i 1).val := by
  unfold DotDims.rhsIdx
  rw [dif_neg (show ¬(1 : Fin S64x65536.rank) ∈ D2.rhsBatch by decide), dif_pos (show (1 : Fin S64x65536.rank) ∈ D2.rhsNonContracting by decide)]
  rfl

/-! ## The two products as finite sums -/

/-- The first product at (h, j): the sum over d of L[d,h] * R[d,j]. -/
theorem mm1_apply (l : FVec Ideal S32x64 .bf16) (r : FVec Ideal S32x65536 .bf16) (h : Fin 64) (j : Fin 65536) :
    matmul (F := Ideal) D1 none l r (constant (F := Ideal) S64x65536 .f32 0x00000000#32) (ix2 h j)
      = ∑ d : Fin 32, l (ix2 d h) * r (ix2 d j) := by
  simp only [matmul]
  rw [Ideal.matmul_constant_zero_apply, ← Equiv.sum_comp (contrEquiv1 D1 32 rfl rfl).symm]
  refine Finset.sum_congr rfl fun k _ => ?_
  have hk := contrEquiv1_symm_val D1 32 rfl rfl k
  have el : D1.lhsIdx (ix2 h j) ((contrEquiv1 D1 32 rfl rfl).symm k) = ix2 k h := funext fun a => Fin.ext (by
    match a with
    | ⟨0, _⟩ => exact (D1.lhsIdx_val_of_single rfl _ _).trans hk
    | ⟨1, _⟩ => exact d1_lhs_1 _ _)
  have er : D1.rhsIdx (ix2 h j) ((contrEquiv1 D1 32 rfl rfl).symm k) = ix2 k j := funext fun a => Fin.ext (by
    match a with
    | ⟨0, _⟩ => exact (D1.rhsIdx_val_of_single rfl _ _).trans hk
    | ⟨1, _⟩ => exact d1_rhs_1 _ _)
  rw [el, er]

/-- The second product at (o, j): the sum over h of L[o,h] * R[h,j]. -/
theorem mm2_apply (l : FVec Ideal S16x64 .bf16) (r : FVec Ideal S64x65536 .bf16) (o : Fin 16) (j : Fin 65536) :
    matmul (F := Ideal) D2 none l r (constant (F := Ideal) S16x65536 .f32 0x00000000#32) (ix2 o j)
      = ∑ h : Fin 64, l (ix2 o h) * r (ix2 h j) := by
  simp only [matmul]
  rw [Ideal.matmul_constant_zero_apply, ← Equiv.sum_comp (contrEquiv1 D2 64 rfl rfl).symm]
  refine Finset.sum_congr rfl fun k _ => ?_
  have hk := contrEquiv1_symm_val D2 64 rfl rfl k
  have el : D2.lhsIdx (ix2 o j) ((contrEquiv1 D2 64 rfl rfl).symm k) = ix2 o k := funext fun a => Fin.ext (by
    match a with
    | ⟨0, _⟩ => exact d2_lhs_0 _ _
    | ⟨1, _⟩ => exact (D2.lhsIdx_val_of_single rfl _ _).trans hk)
  have er : D2.rhsIdx (ix2 o j) ((contrEquiv1 D2 64 rfl rfl).symm k) = ix2 k j := funext fun a => Fin.ext (by
    match a with
    | ⟨0, _⟩ => exact (D2.rhsIdx_val_of_single rfl _ _).trans hk
    | ⟨1, _⟩ => exact d2_rhs_1 _ _)
  rw [el, er]

/-! ## The row sums of the transposed second-layer weights -/

/-- The sum along axis 1 of a [16, 64] array, at row o. -/
theorem rowsum_apply (v : FVec Ideal S16x64 .f32) (hφ : FKind.Formats .f32)
    (hacc : (0x00000000#32 : BitVec 32) = 0x00000000#32) (o : Fin 16) :
    multiReduction (F := Ideal) .add [1] S16 v 0x00000000#32 reduces_S16x64_S16 hφ hacc (ix1 o)
      = ∑ h : Fin 64, v (ix2 o h) := by
  refine (Ideal.multiReduction_add_single v 0x00000000#32 reduces_S16x64_S16 hφ hacc (ix1 o)).trans ?_
  refine Finset.sum_congr rfl fun k _ => congrArg v ?_
  funext a
  match a with
  | ⟨0, _⟩ => rfl
  | ⟨1, _⟩ => rfl

/-- One half, as the body's literal. -/
abbrev half : EReal := Ideal.ofBits .f32 0x3F000000#32

/-! ## The stored value at (o, j) -/

theorem pay_apply (w1 : Vec Ideal S32x64 .f32) (b1 : Vec Ideal S1x64 .f32) (w2t : Vec Ideal S16x64 .f32)
    (b2 : Vec Ideal S1x16 .f32) (xt : Vec Ideal S32x65536 .f32) (o : Fin 16) (j : Fin 65536) :
    k0_pay1 (F := Ideal) w1 b1 w2t b2 xt (ix2 o j)
      = (∑ h : Fin 64, (w2t (ix2 o h) * half)
            * Ideal.tanh ((∑ d : Fin 32, (w1 (ix2 d h) * half) * xt (ix2 d j)) + half * b1 (ix2 0 h)))
        + (half * (∑ h : Fin 64, w2t (ix2 o h)) + b2 (ix2 0 o)) := by
  unfold k0_pay1
  dsimp only
  rw [addf_apply]
  refine congrArg₂ (· + ·) ?_ ?_
  · refine (mm2_apply _ _ o j).trans ?_
    refine Finset.sum_congr rfl fun h _ => ?_
    refine congrArg₂ (· * ·) ?_ ?_
    · rw [truncf_apply, mulf_apply, shapeCast_self, broadcast_apply]; rfl
    · rw [truncf_apply]
      show Ideal.tanh _ = _
      refine congrArg Ideal.tanh ?_
      rw [addf_apply]
      refine congrArg₂ (· + ·) ?_ ?_
      · refine (mm1_apply _ _ h j).trans ?_
        refine Finset.sum_congr rfl fun d _ => ?_
        rw [truncf_apply, truncf_apply, mulf_apply, shapeCast_self, broadcast_apply]; rfl
      · rw [broadcastTo_a1_ab_apply, mulf_apply, broadcast_apply, transpose_ix2_apply]; rfl
  · rw [broadcastTo_a1_ab_apply, addf_apply, mulf_apply, broadcast_apply, shapeCast_a_a1_apply, transpose_ix2_apply]
    refine congrArg₂ (· + ·) (congrArg (_ * ·) ?_) rfl
    refine (rowsum_apply _ _ _ o).trans ?_
    refine Finset.sum_congr rfl fun h _ => ?_
    rw [shapeCast_self]

end Cert.KernelIdeal.KBody

end
-- ==== Proof.KHost.lean ====
/-
  What the transposed kernel's pallas_call finds in the two arrays the host prepares for it: the transposes of the
  inputs X and of the second-layer weights W2, read entry by entry.
-/
import proofs.«106375_g2000504021090499_pallasbulk_1237_19_alg».proof.Proof.Gen.KernelIdeal.Frame
import Idealize.ShloMosaic.Lib.ValueIdx
import Idealize.ShloMosaic.Lib.ValueLayout
import Idealize.ShloMosaic.Lib.StableHlo.Run

noncomputable section

namespace Cert.KernelIdeal.KHost

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The first operand of the call is X transposed. -/
theorem V_xt (c : Dev nD) : (V m c main_v0 : S32x262144.Idx → EReal)
    = transpose S32x262144 [1, 0] (m ((c : Thread nD τ).loc main_arg0) : S262144x32.Idx → EReal) transposes_S262144x32_S32x262144_1_0 := by
  show StableHlo.after hostOps0 (fun b => m (c, b)) (Proc.devRef .tc main_v0) = _
  after_results

/-- The fourth operand of the call is W2 transposed. -/
theorem V_w2t (c : Dev nD) : (V m c main_v1 : S16x64.Idx → EReal)
    = transpose S16x64 [1, 0] (m ((c : Thread nD τ).loc main_arg3) : S64x16.Idx → EReal) transposes_S64x16_S16x64_1_0 := by
  show StableHlo.after hostOps0 (fun b => m (c, b)) (Proc.devRef .tc main_v1) = _
  after_results

/-- Entry (d, n) of the first operand is X[n, d]. -/
theorem V_xt_apply (c : Dev nD) (d : Fin 32) (n : Fin 262144) :
    (V m c main_v0 : S32x262144.Idx → EReal) (ix2 d n) = (m ((c : Thread nD τ).loc main_arg0) : S262144x32.Idx → EReal) (ix2 n d) := by
  rw [V_xt]; exact transpose_ix2_apply _ _ d n

/-- Entry (o, h) of the fourth operand is W2[h, o]. -/
theorem V_w2t_apply (c : Dev nD) (o : Fin 16) (h : Fin 64) :
    (V m c main_v1 : S16x64.Idx → EReal) (ix2 o h) = (m ((c : Thread nD τ).loc main_arg3) : S64x16.Idx → EReal) (ix2 h o) := by
  rw [V_w2t]; exact transpose_ix2_apply _ _ o h

end Cert.KernelIdeal.KHost

end
-- ==== Proof.Spec.lean ====
/-
  The function both programs compute, entry by entry, in the two arrangements the programs use.

  For inputs X [262144, 32], W1 [32, 64], B1 [1, 64], W2 [64, 16], B2 [1, 16], the network's output at row n and
  column o is

      mlpAt n o  =  (sum over h of  logistic( (sum over d of X[n,d] * W1[d,h]) + B1[0,h] ) * W2[h,o])  +  B2[0,o].

  The transposed kernel evaluates the hidden layer through the hyperbolic tangent, with the two factors 1/2 moved into
  the weights and the constant part of the output collected once per column:

      mlpTAt n o  =  (sum over h of (W2[h,o] * 1/2) * tanh( (sum over d of (W1[d,h] * 1/2) * X[n,d]) + 1/2 * B1[0,h] ))
                       +  ( 1/2 * (sum over h of W2[h,o])  +  B2[0,o] ).

  The two agree whenever every entry is a real number, because  logistic z = 1/2 * tanh (z/2) + 1/2  on the reals.
-/
import Idealize.ShloMosaic.PureOps.Ideal
import Idealize.ShloMosaic.Lib.ValueIdx

noncomputable section

namespace Cert.MLP

open Idealize.ShloMosaic Idealize.ShloMosaic.ValueIdx

/-- One half, as the 32-bit literal the kernel multiplies by. -/
abbrev half : EReal := Ideal.ofBits .f32 0x3F000000#32

variable (x : (⟨2, ![262144, 32]⟩ : Shape).Idx → EReal) (w1 : (⟨2, ![32, 64]⟩ : Shape).Idx → EReal)
  (b1 : (⟨2, ![1, 64]⟩ : Shape).Idx → EReal) (w2 : (⟨2, ![64, 16]⟩ : Shape).Idx → EReal)
  (b2 : (⟨2, ![1, 16]⟩ : Shape).Idx → EReal)

/-- The network's output at row n, column o: logistic hidden layer, then the second affine map. -/
def mlpAt (n : Fin 262144) (o : Fin 16) : EReal :=
  (∑ h : Fin 64, Ideal.logistic ((∑ d : Fin 32, x (ix2 n d) * w1 (ix2 d h)) + b1 (ix2 0 h)) * w2 (ix2 h o))
    + b2 (ix2 0 o)

/-- The same entry as the transposed kernel spells it: through tanh, the halves folded into the weights. -/
def mlpTAt (n : Fin 262144) (o : Fin 16) : EReal :=
  (∑ h : Fin 64, (w2 (ix2 h o) * half)
      * Ideal.tanh ((∑ d : Fin 32, (w1 (ix2 d h) * half) * x (ix2 n d)) + half * b1 (ix2 0 h)))
    + (half * (∑ h : Fin 64, w2 (ix2 h o)) + b2 (ix2 0 o))

/-- The whole output array, [262144, 16]. -/
def mlp : (⟨2, ![262144, 16]⟩ : Shape).Idx → EReal := fun i => mlpAt x w1 b1 w2 b2 (i 0) (i 1)

/-- The whole output array in the kernel's spelling. -/
def mlpT : (⟨2, ![262144, 16]⟩ : Shape).Idx → EReal := fun i => mlpTAt x w1 b1 w2 b2 (i 0) (i 1)

/-- The kernel's own output array, [16, 262144]: the transpose of `mlpT`. -/
def mlpTt : (⟨2, ![16, 262144]⟩ : Shape).Idx → EReal := fun i => mlpTAt x w1 b1 w2 b2 (i 1) (i 0)

/-- The reference's packed output array, [32768, 128]: eight consecutive rows of `mlp` side by side. -/
def mlpPacked : (⟨2, ![32768, 128]⟩ : Shape).Idx → EReal := fun i =>
  mlpAt x w1 b1 w2 b2 ⟨8 * (i 0).val + (i 1).val / 16, by have := (i 0).isLt; have := (i 1).isLt; simp at *; omega⟩
    ⟨(i 1).val % 16, Nat.mod_lt _ (by decide)⟩

end Cert.MLP

end
-- ==== Proof.KFinal.lean ====
/-
  From the transposed kernel's blocks to its whole output array.

  Grid point t reads columns 65536 t … 65536 t + 65535 of X transposed, the whole of W1, B1, W2 transposed and B2, and
  writes the same columns of the [16, 262144] output. Entry (o, j) of what it writes is the kernel's spelling of the
  network's output at row n = 65536 t + j, column o; the four column ranges tile the output, so after the last point
  the output array is `mlpTt` of the five inputs.
-/
import proofs.«106375_g2000504021090499_pallasbulk_1237_19_alg».proof.Proof.Gen.KernelIdeal.Frame
import proofs.«106375_g2000504021090499_pallasbulk_1237_19_alg».proof.Proof.KBody
import proofs.«106375_g2000504021090499_pallasbulk_1237_19_alg».proof.Proof.KHost
import proofs.«106375_g2000504021090499_pallasbulk_1237_19_alg».proof.Proof.Spec
import Idealize.ShloMosaic.Lib.Pipeline.Value

noncomputable section

namespace Cert.KernelIdeal.KFinal

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The block indices over the grid: the inputs' block and the output's block move along axis 1 with the point; the
    weights and biases stay at block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-! ## The input blocks, entry by entry -/

/-- Entry (d, j) of the inputs' block at point t is X[65536 t + j, d]. -/
theorem xt_blk (c : Dev nD) (t : Fin cfg0.N) (d : Fin 32) (j : Fin 65536) (n : Fin 262144)
    (hn : n.val = 65536 * t.val + j.val) :
    (iblk m c 0 t : Vec Ideal S32x65536 .f32) (ix2 d j)
      = (m ((c : Thread nD τ).loc main_arg0) : S262144x32.Idx → EReal) (ix2 n d) := by
  obtain ⟨e0, e1, -⟩ := idx_facts t
  refine Eq.trans ?_ (KHost.V_xt_apply m c d n)
  unfold iblk
  rw [View.read_apply]
  show V m c main_v0 _ = V m c main_v0 _
  refine congrArg (V m c main_v0) ?_
  funext a
  apply Fin.ext
  match a with
  | ⟨0, _⟩ => show win0_0.index t 0 * 32 + 1 * d.val = d.val; rw [e0]; omega
  | ⟨1, _⟩ => show win0_0.index t 1 * 65536 + 1 * j.val = n.val; rw [e1, hn]; omega

/-- The first-layer weights' block is the whole of W1. -/
theorem w1_blk (c : Dev nD) (t : Fin cfg0.N) (d : Fin 32) (h : Fin 64) :
    (iblk m c 1 t : Vec Ideal S32x64 .f32) (ix2 d h)
      = (m ((c : Thread nD τ).loc main_arg1) : S32x64.Idx → EReal) (ix2 d h) := by
  obtain ⟨-, -, e0, e1, -⟩ := idx_facts t
  rw [← V_main_arg1 m c]
  unfold iblk
  rw [View.read_apply]
  show V m c main_arg1 _ = V m c main_arg1 _
  refine congrArg (V m c main_arg1) ?_
  funext a
  apply Fin.ext
  match a with
  | ⟨0, _⟩ => show win0_1.index t 0 * 32 + 1 * d.val = d.val; rw [e0]; omega
  | ⟨1, _⟩ => show win0_1.index t 1 * 64 + 1 * h.val = h.val; rw [e1]; omega

/-- The first bias's block is the whole of B1. -/
theorem b1_blk (c : Dev nD) (t : Fin cfg0.N) (h : Fin 64) :
    (iblk m c 2 t : Vec Ideal S1x64 .f32) (ix2 0 h)
      = (m ((c : Thread nD τ).loc main_arg2) : S1x64.Idx → EReal) (ix2 0 h) := by
  obtain ⟨-, -, -, -, e0, e1, -⟩ := idx_facts t
  rw [← V_main_arg2 m c]
  unfold iblk
  rw [View.read_apply]
  show V m c main_arg2 _ = V m c main_arg2 _
  refine congrArg (V m c main_arg2) ?_
  funext a
  apply Fin.ext
  match a with
  | ⟨0, _⟩ => show win0_2.index t 0 * 1 + 1 * 0 = 0; rw [e0]
  | ⟨1, _⟩ => show win0_2.index t 1 * 64 + 1 * h.val = h.val; rw [e1]; omega

/-- The transposed second-layer weights' block, entry (o, h), is W2[h, o]. -/
theorem w2t_blk (c : Dev nD) (t : Fin cfg0.N) (o : Fin 16) (h : Fin 64) :
    (iblk m c 3 t : Vec Ideal S16x64 .f32) (ix2 o h)
      = (m ((c : Thread nD τ).loc main_arg3) : S64x16.Idx → EReal) (ix2 h o) := by
  obtain ⟨-, -, -, -, -, -, e0, e1, -⟩ := idx_facts t
  refine Eq.trans ?_ (KHost.V_w2t_apply m c o h)
  unfold iblk
  rw [View.read_apply]
  show V m c main_v1 _ = V m c main_v1 _
  refine congrArg (V m c main_v1) ?_
  funext a
  apply Fin.ext
  match a with
  | ⟨0, _⟩ => show win0_3.index t 0 * 16 + 1 * o.val = o.val; rw [e0]; omega
  | ⟨1, _⟩ => show win0_3.index t 1 * 64 + 1 * h.val = h.val; rw [e1]; omega

/-- The second bias's block is the whole of B2. -/
theorem b2_blk (c : Dev nD) (t : Fin cfg0.N) (o : Fin 16) :
    (iblk m c 4 t : Vec Ideal S1x16 .f32) (ix2 0 o)
      = (m ((c : Thread nD τ).loc main_arg4) : S1x16.Idx → EReal) (ix2 0 o) := by
  obtain ⟨-, -, -, -, -, -, -, -, e0, e1, -⟩ := idx_facts t
  rw [← V_main_arg4 m c]
  unfold iblk
  rw [View.read_apply]
  show V m c main_arg4 _ = V m c main_arg4 _
  refine congrArg (V m c main_arg4) ?_
  funext a
  apply Fin.ext
  match a with
  | ⟨0, _⟩ => show win0_4.index t 0 * 1 + 1 * 0 = 0; rw [e0]
  | ⟨1, _⟩ => show win0_4.index t 1 * 16 + 1 * o.val = o.val; rw [e1]; omega

/-! ## What a point stores, as the kernel's spelling of the network -/

/-- If the five loaded blocks read the five input arrays at row n as stated, the body's stored value at (o, j) is the
    kernel's spelling of the network's output at (n, o). -/
theorem point_value (x0 : Vec Ideal S32x65536 .f32) (x1 : Vec Ideal S32x64 .f32) (x2 : Vec Ideal S1x64 .f32)
    (x3 : Vec Ideal S16x64 .f32) (x4 : Vec Ideal S1x16 .f32)
    (X : S262144x32.Idx → EReal) (W1 : S32x64.Idx → EReal) (B1 : S1x64.Idx → EReal) (W2 : S64x16.Idx → EReal)
    (B2 : S1x16.Idx → EReal) (o : Fin 16) (j : Fin 65536) (n : Fin 262144)
    (h0 : ∀ d : Fin 32, x0 (ix2 d j) = X (ix2 n d)) (h1 : ∀ (d : Fin 32) (h : Fin 64), x1 (ix2 d h) = W1 (ix2 d h))
    (h2 : ∀ h : Fin 64, x2 (ix2 0 h) = B1 (ix2 0 h)) (h3 : ∀ h : Fin 64, x3 (ix2 o h) = W2 (ix2 h o))
    (h4 : x4 (ix2 0 o) = B2 (ix2 0 o)) :
    k0_pay1 (F := Ideal) x1 x2 x3 x4 x0 (ix2 o j) = Cert.MLP.mlpTAt X W1 B1 W2 B2 n o := by
  rw [KBody.pay_apply]
  unfold Cert.MLP.mlpTAt
  simp only [h0, h1, h2, h3, h4]

/-- The output array after the run, as a function of the launch memory. -/
abbrev outT (c : Dev nD) : S16x262144.Idx → EReal :=
  Cert.MLP.mlpTt (m ((c : Thread nD τ).loc main_arg0)) (m ((c : Thread nD τ).loc main_arg1))
    (m ((c : Thread nD τ).loc main_arg2)) (m ((c : Thread nD τ).loc main_arg3)) (m ((c : Thread nD τ).loc main_arg4))

/-- What point t writes back is block t of that array. -/
theorem flushed_eq (c : Dev nD) (t : Fin cfg0.N) :
    (dats m 0 c).flushed 5 t = ((cfg0.win 5).blk t).view.read (Elt Ideal) (outT m c) := by
  show (cfg0.win 5).cut (grid0.coords t) ((dats m 0 c).after 5 t) = _
  rw [after0_5]
  unfold out0_5
  rw [View.canon_unit_zero hz]
  simp only [View.ld_unit_zero (S := S32x64) hz, View.ld_unit_zero (S := S1x64) hz, View.ld_unit_zero (S := S16x64) hz,
    View.ld_unit_zero (S := S1x16) hz, View.ld_unit_zero (S := S32x65536) hz]
  funext y
  obtain ⟨o, j, rfl⟩ : ∃ (o : Fin 16) (j : Fin 65536), y = ix2 o j := ⟨y 0, y 1, eq_ix2 y⟩
  have hN : cfg0.N = 4 := N_0
  have ht : t.val < 4 := hN ▸ t.isLt
  obtain ⟨n, hn⟩ : ∃ n : Fin 262144, n.val = 65536 * t.val + j.val := ⟨⟨65536 * t.val + j.val, by have := j.isLt; omega⟩, rfl⟩
  obtain ⟨-, -, -, -, -, -, -, -, -, -, e0, e1⟩ := idx_facts t
  have hemb : ((cfg0.win 5).blk t).view.emb (ix2 o j) = (ix2 o n : S16x262144.Idx) := by
    funext a
    apply Fin.ext
    match a with
    | ⟨0, _⟩ => show win0_5.index t 0 * 16 + 1 * o.val = o.val; rw [e0]; omega
    | ⟨1, _⟩ => show win0_5.index t 1 * 65536 + 1 * j.val = n.val; rw [e1, hn]; omega
  rw [View.read_apply, hemb]
  exact point_value (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) o j n
    (fun d => xt_blk m c t d j n hn) (fun d h => w1_blk m c t d h) (fun h => b1_blk m c t h)
    (fun h => w2t_blk m c t o h) (b2_blk m c t o)

/-! ## The blocks tile the output -/

theorem mem_blk (t : Fin cfg0.N) (i : S16x262144.Idx) :
    i ∈ ((cfg0.win 5).blk t).view.set ↔ ∀ a : Fin 2, win0_5.index t a * S16x65536.size a ≤ (i a).val
      ∧ (i a).val < win0_5.index t a * S16x65536.size a + S16x65536.size a := by
  show i ∈ ((View.whole main_v2).slice (win0_5.rect t)).set ↔ _
  rw [View.set_slice_whole, Rect.mem_set_unit]
  exact Iff.rfl

/-- Column i₁ lies in the block of point i₁ / 65536. -/
theorem cover (i : S16x262144.Idx) :
    ∃ t : Fin cfg0.N, (cfg0.win 5).flush t = true ∧ i ∈ ((cfg0.win 5).blk t).view.set := by
  have hN : cfg0.N = 4 := N_0
  have hi0 : (i 0).val < 16 := (i 0).isLt
  have hi1 : (i 1).val < 262144 := (i 1).isLt
  obtain ⟨t, ht⟩ : ∃ t : Fin cfg0.N, t.val = (i 1).val / 65536 := ⟨⟨(i 1).val / 65536, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t 0 * 16 ≤ (i 0).val ∧ (i 0).val < win0_5.index t 0 * 16 + 16; rw [e0]; omega
  | ⟨1, _⟩ => show win0_5.index t 1 * 65536 ≤ (i 1).val ∧ (i 1).val < win0_5.index t 1 * 65536 + 65536; rw [e1, ht]; omega

/-- The output array after the last point. -/
theorem final (c : Dev nD) : (dats m 0 c).arrAt 5 cfg0.N = outT m c :=
  (dats m 0 c).arrAt_eq_of_cover 5 (outT m c) (fun t _ => flushed_eq m c t) cover

end Cert.KernelIdeal.KFinal

end
-- ==== Proof.KRun.lean ====
/-
  The transposed kernel's whole program, read: after the pallas_call the host transposes the [16, 262144] output back,
  so the result array [262144, 16] holds, at (n, o), the kernel's spelling `mlpT` of the network's output; the five
  argument arrays end as they were launched.
-/
import proofs.«106375_g2000504021090499_pallasbulk_1237_19_alg».proof.Proof.KFinal
import Idealize.ShloMosaic.Lib.StableHlo.Run

noncomputable section

namespace Cert.KernelIdeal.KRun

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The result array as a function of the launch memory. -/
abbrev result (c : Dev nD) : S262144x16.Idx → EReal :=
  Cert.MLP.mlpT (m ((c : Thread nD τ).loc main_arg0)) (m ((c : Thread nD τ).loc main_arg1))
    (m ((c : Thread nD τ).loc main_arg2)) (m ((c : Thread nD τ).loc main_arg3)) (m ((c : Thread nD τ).loc main_arg4))

/-- Transposing the kernel's output array gives the result array. -/
theorem transpose_outT (c : Dev nD) :
    transpose S262144x16 [1, 0] (KFinal.outT m c) transposes_S16x262144_S262144x16_1_0 = result m c := by
  funext i
  obtain ⟨n, o, rfl⟩ : ∃ (n : Fin 262144) (o : Fin 16), i = ix2 n o := ⟨i 0, i 1, eq_ix2 i⟩
  exact transpose_ix2_apply _ _ n o

/-- What the host's last line leaves in the result buffer. -/
theorem tail_eq (c : Dev nD) :
    Pipeline.afterTail₀ cfgs (dats m) 0 (V0 m) [hostOps1] c main_v3 = result m c := by
  refine Eq.trans ?_ (transpose_outT m c)
  unfold Pipeline.afterTail₀
  show StableHlo.after hostOps1 _ (Proc.devRef .tc main_v3) = _
  after_results
  exact congrArg (fun v => transpose S262144x16 [1, 0] v transposes_S16x262144_S262144x16_1_0)
    ((Pipeline.withArrays_arr spec0 launch0.win.arr_inj c _ _ 5).trans (KFinal.final m c))

/-- The run: every weakly fair execution ends with the result array at `result` and the arguments unchanged. -/
theorem run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c)))⟩)
    (run_main m ρ)

end Cert.KernelIdeal.KRun

end
-- ==== Proof.RefBody.lean ====
import proofs.«106375_g2000504021090499_pallasbulk_1237_19_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-!
# The reference body's payload read at an index

The body of the reference computes, from a block `x0` of 1024 rows of 256 features, the two weight matrices `x1`
(256 × 512) and `x3` (512 × 128) and the two bias rows `x2` (1 × 512) and `x4` (1 × 128), the two-layer perceptron

  `out[r, l] = (∑ k, σ((∑ j, x0[r, j] * x1[j, k]) + x2[0, k]) * x3[k, l]) + x4[0, l]`

with `σ` the logistic function. This module proves that closed form, entry by entry, at the ideal (extended-real)
values: each matrix product into a zero accumulator is the sum over its one contracted coordinate of the entries'
products, a bias row broadcast over the rows reads the row at the column, and the identity shape casts change nothing.
-/

noncomputable section

namespace Cert.ReferenceIdeal.RefBody

open Idealize.ShloMosaic Idealize.ShloMosaic.TcCoe Idealize.SL.Sem
open Idealize.ShloMosaic.ValueIdx
open Cert.ReferenceIdeal.Gen
open scoped BigOperators

/-- The first product: a 1024 × 256 matrix times a 256 × 512 matrix, into the zero accumulator, read at `(a, b)` is
    the sum over the contracted coordinate `c` of `A[a, c] * B[c, b]`. -/
theorem matmul1_apply (A : FVec Ideal S1024x256 .f32) (B : FVec Ideal S256x512 .f32) (a : Fin 1024) (b : Fin 512) :
    matmul (F := Ideal) dot_S1024x256_S256x512_S1024x512_1_0_0_1_n_n none A B
        (constant (F := Ideal) S1024x512 .f32 0x00000000#32) (ix2 a b)
      = ∑ c : Fin 256, A (ix2 a c) * B (ix2 c b) := by
  show FloatOps.matmul _ none A B _ (ix2 a b) = _
  rw [Ideal.matmul_constant_zero_apply,
    ← Equiv.sum_comp (contrEquiv1 dot_S1024x256_S256x512_S1024x512_1_0_0_1_n_n 256 rfl rfl).symm]
  refine Finset.sum_congr rfl fun c _ => ?_
  have c2 := contrEquiv1_symm_val dot_S1024x256_S256x512_S1024x512_1_0_0_1_n_n 256 rfl rfl c
  have l2 : dot_S1024x256_S256x512_S1024x512_1_0_0_1_n_n.lhsIdx (ix2 a b)
      ((contrEquiv1 dot_S1024x256_S256x512_S1024x512_1_0_0_1_n_n 256 rfl rfl).symm c) = ix2 a c := by
    funext ax; apply Fin.ext
    match ax with
    | ⟨0, _⟩ => simp [DotDims.lhsIdx, dot_S1024x256_S256x512_S1024x512_1_0_0_1_n_n]; rfl
    | ⟨1, _⟩ => simp [DotDims.lhsIdx, dot_S1024x256_S256x512_S1024x512_1_0_0_1_n_n]; exact c2
  have r2 : dot_S1024x256_S256x512_S1024x512_1_0_0_1_n_n.rhsIdx (ix2 a b)
      ((contrEquiv1 dot_S1024x256_S256x512_S1024x512_1_0_0_1_n_n 256 rfl rfl).symm c) = ix2 c b := by
    funext ax; apply Fin.ext
    match ax with
    | ⟨0, _⟩ => simp [DotDims.rhsIdx, dot_S1024x256_S256x512_S1024x512_1_0_0_1_n_n]; exact c2
    | ⟨1, _⟩ => simp [DotDims.rhsIdx, dot_S1024x256_S256x512_S1024x512_1_0_0_1_n_n]; rfl
  rw [l2, r2]

/-- The second product: a 1024 × 512 matrix times a 512 × 128 matrix, into the zero accumulator, read at `(a, b)` is
    the sum over the contracted coordinate `c` of `A[a, c] * B[c, b]`. -/
theorem matmul2_apply (A : FVec Ideal S1024x512 .f32) (B : FVec Ideal S512x128 .f32) (a : Fin 1024) (b : Fin 128) :
    matmul (F := Ideal) dot_S1024x512_S512x128_S1024x128_1_0_0_1_n_n none A B
        (constant (F := Ideal) S1024x128 .f32 0x00000000#32) (ix2 a b)
      = ∑ c : Fin 512, A (ix2 a c) * B (ix2 c b) := by
  show FloatOps.matmul _ none A B _ (ix2 a b) = _
  rw [Ideal.matmul_constant_zero_apply,
    ← Equiv.sum_comp (contrEquiv1 dot_S1024x512_S512x128_S1024x128_1_0_0_1_n_n 512 rfl rfl).symm]
  refine Finset.sum_congr rfl fun c _ => ?_
  have c2 := contrEquiv1_symm_val dot_S1024x512_S512x128_S1024x128_1_0_0_1_n_n 512 rfl rfl c
  have l2 : dot_S1024x512_S512x128_S1024x128_1_0_0_1_n_n.lhsIdx (ix2 a b)
      ((contrEquiv1 dot_S1024x512_S512x128_S1024x128_1_0_0_1_n_n 512 rfl rfl).symm c) = ix2 a c := by
    funext ax; apply Fin.ext
    match ax with
    | ⟨0, _⟩ => simp [DotDims.lhsIdx, dot_S1024x512_S512x128_S1024x128_1_0_0_1_n_n]; rfl
    | ⟨1, _⟩ => simp [DotDims.lhsIdx, dot_S1024x512_S512x128_S1024x128_1_0_0_1_n_n]; exact c2
  have r2 : dot_S1024x512_S512x128_S1024x128_1_0_0_1_n_n.rhsIdx (ix2 a b)
      ((contrEquiv1 dot_S1024x512_S512x128_S1024x128_1_0_0_1_n_n 512 rfl rfl).symm c) = ix2 c b := by
    funext ax; apply Fin.ext
    match ax with
    | ⟨0, _⟩ => simp [DotDims.rhsIdx, dot_S1024x512_S512x128_S1024x128_1_0_0_1_n_n]; exact c2
    | ⟨1, _⟩ => simp [DotDims.rhsIdx, dot_S1024x512_S512x128_S1024x128_1_0_0_1_n_n]; rfl
  rw [l2, r2]

/-- The hidden layer at `(r, k)`: the logistic function of the first product's entry plus the first bias row's entry
    in column `k` (the row is broadcast over the 1024 rows). -/
theorem hidden_apply (A : FVec Ideal S1024x256 .f32) (B : FVec Ideal S256x512 .f32) (b : FVec Ideal S1x512 .f32)
    (r : Fin 1024) (k : Fin 512) :
    logistic (F := Ideal)
        (addf (matmul (F := Ideal) dot_S1024x256_S256x512_S1024x512_1_0_0_1_n_n none A B
            (constant (F := Ideal) S1024x512 .f32 0x00000000#32))
          (broadcastTo S1024x512 b broadcasts_S1x512_S1024x512)) (ix2 r k)
      = Ideal.logistic ((∑ j : Fin 256, A (ix2 r j) * B (ix2 j k)) + b (ix2 0 k)) := by
  show Ideal.logistic
      (matmul (F := Ideal) dot_S1024x256_S256x512_S1024x512_1_0_0_1_n_n none A B
          (constant (F := Ideal) S1024x512 .f32 0x00000000#32) (ix2 r k)
        + broadcastTo S1024x512 b broadcasts_S1x512_S1024x512 (ix2 r k)) = _
  rw [matmul1_apply A B r k, broadcastTo_1b_ab_apply b broadcasts_S1x512_S1024x512 r k]

/-- The payload the body stores, read at `(r, l)`: the two-layer perceptron's entry. The three shape casts are to the
    operand's own shape, so they are the identity; the outer sum is the second product's, each of its left factors a
    hidden-layer entry; the second bias row is broadcast over the rows. -/
theorem pay_apply (x0 : Vec Ideal S1024x256 .f32) (x1 : Vec Ideal S256x512 .f32) (x2 : Vec Ideal S1x512 .f32)
    (x3 : Vec Ideal S512x128 .f32) (x4 : Vec Ideal S1x128 .f32) (r : Fin 1024) (l : Fin 128) :
    Gen.k0_pay1 (F := Ideal) x0 x1 x2 x3 x4 (ix2 r l)
      = (∑ k : Fin 512, Ideal.logistic ((∑ j : Fin 256, x0 (ix2 r j) * x1 (ix2 j k)) + x2 (ix2 0 k)) * x3 (ix2 k l))
        + x4 (ix2 0 l) := by
  unfold Gen.k0_pay1
  simp only [shapeCast_self]
  rw [addf_apply, matmul2_apply, broadcastTo_1b_ab_apply x4 broadcasts_S1x128_S1024x128 r l]
  refine congrArg (· + x4 (ix2 0 l)) (Finset.sum_congr rfl fun k _ => ?_)
  rw [hidden_apply x0 x1 x2 r k]

end Cert.ReferenceIdeal.RefBody

end
-- ==== Proof.RefHost.lean ====
import proofs.«106375_g2000504021090499_pallasbulk_1237_19_alg».proof.Proof.Gen.ReferenceIdeal.Frame
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run

/-! # The reference program's packed operands, read at an index

Before its one region the reference program packs eight rows of the batch into one: the input [262144, 32] is reshaped to
[32768, 256], each weight is replaced by the Kronecker product of the 8 × 8 identity with it (a block-diagonal matrix
with eight copies of the weight on the diagonal), and each bias row is repeated eight times along the lanes. Every one
of these arrays is a composition of reshapes, broadcasts and one pointwise product of the argument arrays. Here each is
read at an index whose coordinates are split as (block number, position within the block):

* a reshape keeps the row-major position, so the entry is found by equating the two positions;
* a broadcast reads the operand at the coordinates its axes are mapped to, and at 0 on a unit axis;
* the identity's entry (p, q) is the float of the one-bit word "p + 0 = q" on 32-bit words, which is 1 when p = q and 0
  otherwise, since numbers below 8 are equal as words exactly when they are equal. -/

set_option maxRecDepth 16384

noncomputable section

namespace Cert.ReferenceIdeal.RefHost

open Idealize.ShloMosaic Idealize.ShloMosaic.TcCoe Idealize.SL.Sem
open Idealize.ShloMosaic.ValueIdx

variable (m : (ℓ : Loc nD τ sig) → Buf (Elt Ideal) ℓ) (c : Dev nD)

/-- The reshape [262144, 32] → [32768, 256] keeps the row-major position: entry (r, 32 p + d) of the packed array is
    entry (8 r + p, d) of the argument. -/
theorem x_p (r : Fin 32768) (p : Fin 8) (d : Fin 32) :
    (Gen.V m c main_v0 : S32768x256.Idx → EReal) (ix2 r ⟨32 * p.val + d.val, by omega⟩)
      = (m ((c : Thread nD τ).loc main_arg0) : S262144x32.Idx → EReal) (ix2 ⟨8 * r.val + p.val, by omega⟩ d) := by
  have e : (Gen.V m c main_v0 : S32768x256.Idx → EReal)
      = shapeCast S32768x256 (m ((c : Thread nD τ).loc main_arg0) : S262144x32.Idx → EReal) Gen.shapeCasts_S262144x32_S32768x256 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  rw [e]
  refine shapeCast_apply _ _ _ _ ?_
  show (S262144x32.rowMajor (ix2 (⟨8 * r.val + p.val, by omega⟩ : Fin 262144) d)).val
    = (S32768x256.rowMajor (ix2 r (⟨32 * p.val + d.val, by omega⟩ : Fin 256))).val
  rw [Shape.rowMajor_val_two, Shape.rowMajor_val_two]
  show (8 * r.val + p.val) * 32 + d.val = r.val * 256 + (32 * p.val + d.val)
  omega

/-- The identity matrix as the program builds it: the one-bit word of "row number + 0 = column number", converted to a
    float. Row and column numbers below 8 are distinct as 32-bit words exactly when they are distinct numbers. -/
theorem eye_apply (p q : Fin 8) :
    (uitofp (F := Ideal) .f32 (cmpi .eq (addi (iotaInDim S8x8 32 0) (broadcastInDim S8x8 ![] Gen.bcast_S_S8x8 (constantI S_ 32 0#32))) (iotaInDim S8x8 32 1)) : S8x8.Idx → EReal) (ix2 p q)
      = if p = q then (1 : EReal) else 0 := by
  show (((IntOp.cmpi .eq (IntOp.addi (BitVec.ofNat 32 p.val) (broadcastInDim S8x8 ![] Gen.bcast_S_S8x8 (constantI S_ 32 0#32) (ix2 p q))) (BitVec.ofNat 32 q.val)).toNat : ℝ) : EReal) = _
  rw [broadcastInDim_scalar_apply, constantI_apply]
  have hw : IntOp.cmpi .eq (IntOp.addi (BitVec.ofNat 32 p.val) 0#32) (BitVec.ofNat 32 q.val) = BitVec.ofBool (decide (p = q)) := by
    show BitVec.ofBool (BitVec.ofNat 32 p.val + 0#32 == BitVec.ofNat 32 q.val) = _
    congr 1
    rw [BitVec.add_zero, Bool.eq_iff_iff]
    simp only [beq_iff_eq, decide_eq_true_eq]
    constructor
    · intro hb
      have hn := congrArg BitVec.toNat hb
      simp only [BitVec.toNat_ofNat] at hn
      apply Fin.ext
      omega
    · rintro rfl
      rfl
  rw [hw]
  by_cases hpq : p = q
  · rw [if_pos hpq, decide_eq_true hpq]
    show (((1 : ℕ) : ℝ) : EReal) = 1
    simp
  · rw [if_neg hpq, decide_eq_false hpq]
    show (((0 : ℕ) : ℝ) : EReal) = 0
    simp

/-- kron(eye(8), w1) as one term of the argument: identity and weight broadcast to [8, 32, 8, 64], multiplied, reshaped. -/
theorem w1_p_e :
    (Gen.V m c main_v7 : S256x512.Idx → EReal)
      = shapeCast S256x512
          (mulf (F := Ideal)
            (broadcastInDim S8x32x8x64 ![0, 1, 2, 3] Gen.bcast_S8x1x8x1_S8x32x8x64_0_1_2_3
              (broadcastInDim S8x1x8x1 ![0, 2] Gen.bcast_S8x8_S8x1x8x1_0_2
                (uitofp (F := Ideal) .f32 (cmpi .eq (addi (iotaInDim S8x8 32 0) (broadcastInDim S8x8 ![] Gen.bcast_S_S8x8 (constantI S_ 32 0#32))) (iotaInDim S8x8 32 1)))))
            (broadcastInDim S8x32x8x64 ![0, 1, 2, 3] Gen.bcast_S1x32x1x64_S8x32x8x64_0_1_2_3
              (broadcastInDim S1x32x1x64 ![1, 3] Gen.bcast_S32x64_S1x32x1x64_1_3
                (m ((c : Thread nD τ).loc main_arg1) : S32x64.Idx → EReal))))
          Gen.shapeCasts_S8x32x8x64_S256x512 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Block (p, q) of the block-diagonal weight is the weight when p = q and zero otherwise. -/
theorem w1_p (p q : Fin 8) (d : Fin 32) (h : Fin 64) :
    (Gen.V m c main_v7 : S256x512.Idx → EReal) (ix2 ⟨32 * p.val + d.val, by omega⟩ ⟨64 * q.val + h.val, by omega⟩)
      = (if p = q then (1 : EReal) else 0) * (m ((c : Thread nD τ).loc main_arg1) : S32x64.Idx → EReal) (ix2 d h) := by
  rw [w1_p_e m c]
  refine (shapeCast_apply _ _ _ (ix4 p d q h) ?_).trans ?_
  · show (S8x32x8x64.rowMajor (ix4 p d q h)).val
      = (S256x512.rowMajor (ix2 (⟨32 * p.val + d.val, by omega⟩ : Fin 256) (⟨64 * q.val + h.val, by omega⟩ : Fin 512))).val
    rw [Shape.rowMajor_val_four, Shape.rowMajor_val_two]
    show ((p.val * 32 + d.val) * 8 + q.val) * 64 + h.val = (32 * p.val + d.val) * 512 + (64 * q.val + h.val)
    omega
  · rw [mulf_apply]
    congr 1
    · refine (broadcastInDim_apply _ _ _ _ (ix4 p 0 q 0) ?_).trans ?_
      · intro a; fin_cases a <;> rfl
      refine (broadcastInDim_apply _ _ _ _ (ix2 p q) ?_).trans ?_
      · intro a; fin_cases a <;> rfl
      exact eye_apply p q
    · refine (broadcastInDim_apply _ _ _ _ (ix4 0 d 0 h) ?_).trans ?_
      · intro a; fin_cases a <;> rfl
      exact broadcastInDim_apply _ _ _ _ (ix2 d h) (by intro a; fin_cases a <;> rfl)

/-- kron(eye(8), w2) as one term of the argument: identity and weight broadcast to [8, 64, 8, 16], multiplied, reshaped. -/
theorem w2_p_e :
    (Gen.V m c main_v14 : S512x128.Idx → EReal)
      = shapeCast S512x128
          (mulf (F := Ideal)
            (broadcastInDim S8x64x8x16 ![0, 1, 2, 3] Gen.bcast_S8x1x8x1_S8x64x8x16_0_1_2_3
              (broadcastInDim S8x1x8x1 ![0, 2] Gen.bcast_S8x8_S8x1x8x1_0_2
                (uitofp (F := Ideal) .f32 (cmpi .eq (addi (iotaInDim S8x8 32 0) (broadcastInDim S8x8 ![] Gen.bcast_S_S8x8 (constantI S_ 32 0#32))) (iotaInDim S8x8 32 1)))))
            (broadcastInDim S8x64x8x16 ![0, 1, 2, 3] Gen.bcast_S1x64x1x16_S8x64x8x16_0_1_2_3
              (broadcastInDim S1x64x1x16 ![1, 3] Gen.bcast_S64x16_S1x64x1x16_1_3
                (m ((c : Thread nD τ).loc main_arg3) : S64x16.Idx → EReal))))
          Gen.shapeCasts_S8x64x8x16_S512x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Block (p, q) of the block-diagonal weight is the weight when p = q and zero otherwise. -/
theorem w2_p (p q : Fin 8) (h : Fin 64) (o : Fin 16) :
    (Gen.V m c main_v14 : S512x128.Idx → EReal) (ix2 ⟨64 * p.val + h.val, by omega⟩ ⟨16 * q.val + o.val, by omega⟩)
      = (if p = q then (1 : EReal) else 0) * (m ((c : Thread nD τ).loc main_arg3) : S64x16.Idx → EReal) (ix2 h o) := by
  rw [w2_p_e m c]
  refine (shapeCast_apply _ _ _ (ix4 p h q o) ?_).trans ?_
  · show (S8x64x8x16.rowMajor (ix4 p h q o)).val
      = (S512x128.rowMajor (ix2 (⟨64 * p.val + h.val, by omega⟩ : Fin 512) (⟨16 * q.val + o.val, by omega⟩ : Fin 128))).val
    rw [Shape.rowMajor_val_four, Shape.rowMajor_val_two]
    show ((p.val * 64 + h.val) * 8 + q.val) * 16 + o.val = (64 * p.val + h.val) * 128 + (16 * q.val + o.val)
    omega
  · rw [mulf_apply]
    congr 1
    · refine (broadcastInDim_apply _ _ _ _ (ix4 p 0 q 0) ?_).trans ?_
      · intro a; fin_cases a <;> rfl
      refine (broadcastInDim_apply _ _ _ _ (ix2 p q) ?_).trans ?_
      · intro a; fin_cases a <;> rfl
      exact eye_apply p q
    · refine (broadcastInDim_apply _ _ _ _ (ix4 0 h 0 o) ?_).trans ?_
      · intro a; fin_cases a <;> rfl
      exact broadcastInDim_apply _ _ _ _ (ix2 h o) (by intro a; fin_cases a <;> rfl)

/-- The bias tiled eight times along the lanes: reshaped to [1, 1, 1, 64], broadcast to [1, 1, 8, 64], reshaped to [1, 512]. -/
theorem b1_p_e :
    (Gen.V m c main_v17 : S1x512.Idx → EReal)
      = shapeCast S1x512
          (broadcastInDim S1x1x8x64 ![0, 1, 2, 3] Gen.bcast_S1x1x1x64_S1x1x8x64_0_1_2_3
            (shapeCast S1x1x1x64 (m ((c : Thread nD τ).loc main_arg2) : S1x64.Idx → EReal) Gen.shapeCasts_S1x64_S1x1x1x64))
          Gen.shapeCasts_S1x1x8x64_S1x512 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Lane 64 q + h of the tiled bias is lane h of the bias. -/
theorem b1_p (q : Fin 8) (h : Fin 64) :
    (Gen.V m c main_v17 : S1x512.Idx → EReal) (ix2 0 ⟨64 * q.val + h.val, by omega⟩)
      = (m ((c : Thread nD τ).loc main_arg2) : S1x64.Idx → EReal) (ix2 0 h) := by
  rw [b1_p_e m c]
  refine (shapeCast_apply _ _ _ (ix4 0 0 q h) ?_).trans ?_
  · show (S1x1x8x64.rowMajor (ix4 (0 : Fin 1) (0 : Fin 1) q h)).val
      = (S1x512.rowMajor (ix2 (0 : Fin 1) (⟨64 * q.val + h.val, by omega⟩ : Fin 512))).val
    rw [Shape.rowMajor_val_four, Shape.rowMajor_val_two]
    show ((0 * 1 + 0) * 8 + q.val) * 64 + h.val = 0 * 512 + (64 * q.val + h.val)
    omega
  refine (broadcastInDim_apply _ _ _ _ (ix4 0 0 0 h) ?_).trans ?_
  · intro a; fin_cases a <;> rfl
  refine shapeCast_apply _ _ _ (ix2 0 h) ?_
  show (S1x64.rowMajor (ix2 (0 : Fin 1) h)).val = (S1x1x1x64.rowMajor (ix4 (0 : Fin 1) (0 : Fin 1) (0 : Fin 1) h)).val
  rw [Shape.rowMajor_val_two, Shape.rowMajor_val_four]
  show 0 * 64 + h.val = ((0 * 1 + 0) * 1 + 0) * 64 + h.val
  omega

/-- The bias tiled eight times along the lanes: reshaped to [1, 1, 1, 16], broadcast to [1, 1, 8, 16], reshaped to [1, 128]. -/
theorem b2_p_e :
    (Gen.V m c main_v20 : S1x128.Idx → EReal)
      = shapeCast S1x128
          (broadcastInDim S1x1x8x16 ![0, 1, 2, 3] Gen.bcast_S1x1x1x16_S1x1x8x16_0_1_2_3
            (shapeCast S1x1x1x16 (m ((c : Thread nD τ).loc main_arg4) : S1x16.Idx → EReal) Gen.shapeCasts_S1x16_S1x1x1x16))
          Gen.shapeCasts_S1x1x8x16_S1x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Lane 16 q + o of the tiled bias is lane o of the bias. -/
theorem b2_p (q : Fin 8) (o : Fin 16) :
    (Gen.V m c main_v20 : S1x128.Idx → EReal) (ix2 0 ⟨16 * q.val + o.val, by omega⟩)
      = (m ((c : Thread nD τ).loc main_arg4) : S1x16.Idx → EReal) (ix2 0 o) := by
  rw [b2_p_e m c]
  refine (shapeCast_apply _ _ _ (ix4 0 0 q o) ?_).trans ?_
  · show (S1x1x8x16.rowMajor (ix4 (0 : Fin 1) (0 : Fin 1) q o)).val
      = (S1x128.rowMajor (ix2 (0 : Fin 1) (⟨16 * q.val + o.val, by omega⟩ : Fin 128))).val
    rw [Shape.rowMajor_val_four, Shape.rowMajor_val_two]
    show ((0 * 1 + 0) * 8 + q.val) * 16 + o.val = 0 * 128 + (16 * q.val + o.val)
    omega
  refine (broadcastInDim_apply _ _ _ _ (ix4 0 0 0 o) ?_).trans ?_
  · intro a; fin_cases a <;> rfl
  refine shapeCast_apply _ _ _ (ix2 0 o) ?_
  show (S1x16.rowMajor (ix2 (0 : Fin 1) o)).val = (S1x1x1x16.rowMajor (ix4 (0 : Fin 1) (0 : Fin 1) (0 : Fin 1) o)).val
  rw [Shape.rowMajor_val_two, Shape.rowMajor_val_four]
  show 0 * 16 + o.val = ((0 * 1 + 0) * 1 + 0) * 16 + o.val
  omega

end Cert.ReferenceIdeal.RefHost
end
-- ==== Proof.LibERealFinite.lean ====
/-
  Extended reals that are real numbers: general facts used to carry an identity of real arithmetic over to the
  extended reals. A coerced real stays a coerced real under finite sums, maxima, absolute values, case
  distinctions and the exact operations (division by a nonzero real, the logarithm of a positive real); and the
  32-bit words of a few small constants denote the reals one expects.
-/
import Idealize.ShloMosaic.PureOps.Ideal

noncomputable section

open scoped BigOperators

namespace Cert.LibERealFinite

open Idealize.ShloMosaic

/-! ## Sums -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same for a double sum over two finite types. -/
theorem coe_sum₂ {ι κ : Type*} [Fintype ι] [Fintype κ] (f : ι → κ → ℝ) :
    ((∑ i, ∑ j, f i j : ℝ) : EReal) = ∑ i, ∑ j, (f i j : EReal) := by
  rw [coe_sum]
  exact Finset.sum_congr rfl fun i _ => coe_sum _ _

/-- A finite sum of extended reals that are all real is real. -/
theorem exists_real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl fun i _ => hg i⟩

/-! ## Order operations -/

/-- The coercion of a maximum of two reals is the maximum of the coercions. -/
theorem coe_max (a b : ℝ) : ((max a b : ℝ) : EReal) = max (a : EReal) (b : EReal) :=
  Monotone.map_max EReal.coe_strictMono.monotone

/-- `max x (-x)` of a real is its absolute value. -/
theorem max_neg_coe (a : ℝ) : max (a : EReal) (-(a : EReal)) = ((|a| : ℝ) : EReal) := by
  rw [← EReal.coe_neg, ← coe_max, abs_eq_max_neg]

/-- The lattice's bottom is neutral for `max`, on either side. -/
theorem max_bot_left' (x : EReal) : max ⊥ x = x := max_eq_right bot_le
theorem max_bot_right' (x : EReal) : max x ⊥ = x := max_eq_left bot_le

/-- A case distinction between two coerced reals is the coercion of the case distinction. -/
theorem ite_coe (c : Prop) [Decidable c] (a b : ℝ) :
    (if c then (a : EReal) else (b : EReal)) = ((if c then a else b : ℝ) : EReal) := by
  split <;> rfl

/-! ## The exact operations on reals -/

/-- Dividing a real by a nonzero real. -/
theorem div_coe_coe {y : ℝ} (hy : y ≠ 0) (x : ℝ) : Ideal.div (x : EReal) (y : EReal) = ((x / y : ℝ) : EReal) := by
  rw [Ideal.div_coe hy, ← EReal.coe_mul, mul_one_div]

/-- The logarithm of a positive real. -/
theorem log_coe_pos {r : ℝ} (h : 0 < r) : Ideal.log (r : EReal) = ((Real.log r : ℝ) : EReal) := by
  rw [Ideal.log_coe, if_neg (not_le.mpr h)]

/-- The exponential of a real. -/
theorem exp_coe' (r : ℝ) : Ideal.exp (r : EReal) = ((Real.exp r : ℝ) : EReal) := rfl

/-- The hyperbolic tangent of a real. -/
theorem tanh_coe' (r : ℝ) : Ideal.tanh (r : EReal) = ((Real.tanh r : ℝ) : EReal) := rfl

/-- The expansion `1 / (1 + exp (-x))` of the logistic function at a real. -/
theorem div_one_add_exp_neg_coe (r : ℝ) :
    Ideal.div 1 (1 + Ideal.exp (-(r : EReal))) = (((1 + Real.exp (-r))⁻¹ : ℝ) : EReal) :=
  Ideal.logistic_coe r

/-! ## The words of a few constants -/

theorem ofBits_f32_zero : Ideal.ofBits .f32 0x00000000#32 = ((0 : ℝ) : EReal) := by
  simp [Ideal.ofBits, Ideal.ieee]

theorem ofBits_f32_one : Ideal.ofBits .f32 0x3F800000#32 = ((1 : ℝ) : EReal) := by
  simp [Ideal.ofBits, Ideal.ieee, -EReal.coe_mul]; norm_num

theorem ofBits_f32_half : Ideal.ofBits .f32 0x3F000000#32 = ((1 / 2 : ℝ) : EReal) := by
  simp [Ideal.ofBits, Ideal.ieee, -EReal.coe_mul]; norm_num

theorem ofBits_f32_quarter : Ideal.ofBits .f32 0x3E800000#32 = ((1 / 4 : ℝ) : EReal) := by
  simp [Ideal.ofBits, Ideal.ieee, -EReal.coe_mul]; norm_num

theorem ofBits_f32_256 : Ideal.ofBits .f32 0x43800000#32 = ((256 : ℝ) : EReal) := by
  simp [Ideal.ofBits, Ideal.ieee, -EReal.coe_mul]; norm_num

theorem ofBits_f32_10000 : Ideal.ofBits .f32 0x461C4000#32 = ((10000 : ℝ) : EReal) := by
  simp [Ideal.ofBits, Ideal.ieee, -EReal.coe_mul]; norm_num

theorem ofBits_f32_65536 : Ideal.ofBits .f32 0x47800000#32 = ((65536 : ℝ) : EReal) := by
  simp [Ideal.ofBits, Ideal.ieee, -EReal.coe_mul]; norm_num

theorem ofBits_f32_neg_inf : Ideal.ofBits .f32 0xFF800000#32 = ⊥ := by
  simp [Ideal.ofBits, Ideal.ieee]

end Cert.LibERealFinite

end
-- ==== Proof.LibLogisticTanh.lean ====
/-
  The logistic function through the hyperbolic tangent:  1 / (1 + exp (-z)) = 1/2 * tanh (z/2) + 1/2  for every real z,
  and the same at the exact extended-real logistic function of a real argument.
-/
import Idealize.ShloMosaic.PureOps.Ideal
import Mathlib.Analysis.SpecialFunctions.Trigonometric.Basic

noncomputable section

namespace Cert.LibLogisticTanh

open Idealize.ShloMosaic

/-- On the reals, 1 / (1 + exp (-z)) = 1/2 * tanh (z/2) + 1/2: with a = exp (z/2) both sides are a² / (a² + 1). -/
theorem logistic_eq_tanh (z : ℝ) : (1 + Real.exp (-z))⁻¹ = 1 / 2 * Real.tanh (z / 2) + 1 / 2 := by
  have ha : 0 < Real.exp (z / 2) := Real.exp_pos _
  have h1 : Real.exp (-z) = (Real.exp (z / 2))⁻¹ * (Real.exp (z / 2))⁻¹ := by
    rw [← Real.exp_neg, ← Real.exp_add]; congr 1; ring
  rw [Real.tanh_eq_sinh_div_cosh, Real.sinh_eq, Real.cosh_eq, h1, Real.exp_neg]
  have hne : Real.exp (z / 2) ≠ 0 := ha.ne'
  field_simp
  ring

/-- The exact logistic function at a real argument, through tanh. -/
theorem ideal_logistic_coe (z : ℝ) :
    Ideal.logistic (z : EReal) = ((1 / 2 * Real.tanh (z / 2) + 1 / 2 : ℝ) : EReal) := by
  rw [Ideal.logistic_coe, logistic_eq_tanh]

end Cert.LibLogisticTanh

end
-- ==== Proof.LibSumBlocks.lean ====
/-
  Two facts about finite sums arranged in blocks.

  * A sum over a * b consecutive positions is the sum over a blocks of b positions each (position b p + d in block p).
  * A double sum over blocks whose terms carry the identity matrix's entry (1 on the chosen block q, 0 elsewhere) as a
    factor keeps only block q. This holds on all extended reals, infinite ones included, because 0 * y = 0 and
    1 * y = y there.
-/
import Idealize.ShloMosaic.PureOps.Ideal
import Mathlib.Algebra.BigOperators.Fin

noncomputable section

open scoped BigOperators

namespace Cert.LibSumBlocks

/-- A sum over a * b consecutive positions, as the sum over a groups of b. -/
theorem sum_fin_mul {M : Type*} [AddCommMonoid M] (a b : ℕ) (f : Fin (a * b) → M) :
    ∑ j, f j = ∑ p : Fin a, ∑ d : Fin b, f ⟨b * p.val + d.val, by
      have hp := p.isLt; have hd := d.isLt
      calc b * p.val + d.val < b * p.val + b := by omega
        _ = b * (p.val + 1) := by ring
        _ ≤ b * a := Nat.mul_le_mul_left _ hp
        _ = a * b := Nat.mul_comm _ _⟩ := by
  rw [← Equiv.sum_comp finProdFinEquiv f, Fintype.sum_prod_type]
  refine Finset.sum_congr rfl fun p _ => Finset.sum_congr rfl fun d _ => congrArg f (Fin.ext ?_)
  simp only [finProdFinEquiv_apply_val]
  ring

/-- Only the diagonal block survives a sum over the blocks weighted by the identity's entries. -/
theorem sum_delta {n : ℕ} {ι : Type*} [Fintype ι] (q : Fin n) (g : Fin n → ι → EReal) (y : ι → EReal) :
    (∑ p : Fin n, ∑ d : ι, g p d * ((if p = q then (1 : EReal) else 0) * y d)) = ∑ d : ι, g q d * y d := by
  rw [Finset.sum_eq_single q]
  · refine Finset.sum_congr rfl fun d _ => ?_
    rw [if_pos rfl, one_mul]
  · intro p _ hp
    refine Finset.sum_eq_zero fun d _ => ?_
    rw [if_neg hp, zero_mul, mul_zero]
  · intro h; exact absurd (Finset.mem_univ q) h

end Cert.LibSumBlocks

end
-- ==== Proof.Algebra.lean ====
/-
  The two laws that join the programs.

  1. On real numbers  1 / (1 + exp (-z)) = 1/2 * tanh (z/2) + 1/2 ; hence, when every entry of the five input arrays
     is a real number, the kernel's spelling `mlpTAt` of an output entry equals the network's `mlpAt`: the factors 1/2
     move out of the inner sum and into the tanh's argument, and the constant 1/2 * (sum of a column of W2) is the
     sum of the constant halves of the hidden units. Distributing a product over a sum is where real entries are needed.

  2. A contraction against a block-diagonal matrix keeps one block: if X' has the eight rows x_0 … x_7 side by side
     and W' = kron(I_8, W), then (X' W')[64 q + h] = (x_q W)[h]; likewise for the second layer. This holds on all
     extended reals, since 0 * y = 0 and 1 * y = y there.
-/
import proofs.«106375_g2000504021090499_pallasbulk_1237_19_alg».proof.Proof.Spec
import proofs.«106375_g2000504021090499_pallasbulk_1237_19_alg».proof.Proof.LibERealFinite
import proofs.«106375_g2000504021090499_pallasbulk_1237_19_alg».proof.Proof.LibLogisticTanh
import proofs.«106375_g2000504021090499_pallasbulk_1237_19_alg».proof.Proof.LibSumBlocks

noncomputable section

open scoped BigOperators

namespace Cert.MLP

open Idealize.ShloMosaic Idealize.ShloMosaic.ValueIdx Cert.LibERealFinite Cert.LibLogisticTanh Cert.LibSumBlocks

/-! ## The kernel's spelling equals the network's, on reals -/

theorem real_identity (x : Fin 32 → ℝ) (w1 : Fin 32 → Fin 64 → ℝ) (b1 : Fin 64 → ℝ) (w2 : Fin 64 → ℝ) (b2 : ℝ) :
    (∑ h, (w2 h * (1 / 2)) * Real.tanh ((∑ d, (w1 d h * (1 / 2)) * x d) + 1 / 2 * b1 h)) + (1 / 2 * (∑ h, w2 h) + b2)
      = (∑ h, (1 + Real.exp (-((∑ d, x d * w1 d h) + b1 h)))⁻¹ * w2 h) + b2 := by
  have hz : ∀ h, (∑ d, (w1 d h * (1 / 2)) * x d) + 1 / 2 * b1 h = ((∑ d, x d * w1 d h) + b1 h) / 2 := by
    intro h
    rw [add_div, Finset.sum_div]
    refine congrArg₂ (· + ·) (Finset.sum_congr rfl fun d _ => by ring) (by ring)
  simp only [hz, logistic_eq_tanh]
  rw [Finset.mul_sum, ← add_assoc, ← Finset.sum_add_distrib]
  refine congrArg (· + b2) (Finset.sum_congr rfl fun h _ => by ring)

variable (x : (⟨2, ![262144, 32]⟩ : Shape).Idx → EReal) (w1 : (⟨2, ![32, 64]⟩ : Shape).Idx → EReal)
  (b1 : (⟨2, ![1, 64]⟩ : Shape).Idx → EReal) (w2 : (⟨2, ![64, 16]⟩ : Shape).Idx → EReal)
  (b2 : (⟨2, ![1, 16]⟩ : Shape).Idx → EReal)

/-- With real entries everywhere, the kernel's spelling of an output entry is the network's. -/
theorem mlpTAt_eq_mlpAt (hx : ∀ i, ∃ r : ℝ, x i = (r : EReal)) (hw1 : ∀ i, ∃ r : ℝ, w1 i = (r : EReal))
    (hb1 : ∀ i, ∃ r : ℝ, b1 i = (r : EReal)) (hw2 : ∀ i, ∃ r : ℝ, w2 i = (r : EReal))
    (hb2 : ∀ i, ∃ r : ℝ, b2 i = (r : EReal)) (n : Fin 262144) (o : Fin 16) :
    mlpTAt x w1 b1 w2 b2 n o = mlpAt x w1 b1 w2 b2 n o := by
  choose xr hxr using hx
  choose w1r hw1r using hw1
  choose b1r hb1r using hb1
  choose w2r hw2r using hw2
  choose b2r hb2r using hb2
  unfold mlpTAt mlpAt
  simp only [hxr, hw1r, hb1r, hw2r, hb2r, half, ofBits_f32_half, ← EReal.coe_mul, ← coe_sum, ← EReal.coe_add,
    Ideal.tanh_coe, Ideal.logistic_coe]
  exact congrArg _ (real_identity (fun d => xr (ix2 n d)) (fun d h => w1r (ix2 d h)) (fun h => b1r (ix2 0 h))
    (fun h => w2r (ix2 h o)) (b2r (ix2 0 o)))

theorem mlpT_eq_mlp (hx : ∀ i, ∃ r : ℝ, x i = (r : EReal)) (hw1 : ∀ i, ∃ r : ℝ, w1 i = (r : EReal))
    (hb1 : ∀ i, ∃ r : ℝ, b1 i = (r : EReal)) (hw2 : ∀ i, ∃ r : ℝ, w2 i = (r : EReal))
    (hb2 : ∀ i, ∃ r : ℝ, b2 i = (r : EReal)) : mlpT x w1 b1 w2 b2 = mlp x w1 b1 w2 b2 :=
  funext fun i => mlpTAt_eq_mlpAt x w1 b1 w2 b2 hx hw1 hb1 hw2 hb2 (i 0) (i 1)

/-! ## Contracting against a block-diagonal matrix -/

/-- The packed, block-diagonal network at packed column 16 q + o is the plain network on the q-th of the eight rows. -/
theorem packed_collapse (X : Fin 256 → EReal) (W1 : Fin 256 → Fin 512 → EReal) (B1 : Fin 512 → EReal)
    (W2 : Fin 512 → EReal) (B2 : EReal)
    (xs : Fin 8 → Fin 32 → EReal) (u1 : Fin 32 → Fin 64 → EReal) (c1 : Fin 64 → EReal) (u2 : Fin 64 → EReal) (q : Fin 8)
    (hX : ∀ (p : Fin 8) (d : Fin 32), X ⟨32 * p.val + d.val, by omega⟩ = xs p d)
    (hW1 : ∀ (p p' : Fin 8) (d : Fin 32) (h : Fin 64),
      W1 ⟨32 * p.val + d.val, by omega⟩ ⟨64 * p'.val + h.val, by omega⟩ = (if p = p' then (1 : EReal) else 0) * u1 d h)
    (hB1 : ∀ (p' : Fin 8) (h : Fin 64), B1 ⟨64 * p'.val + h.val, by omega⟩ = c1 h)
    (hW2 : ∀ (p : Fin 8) (h : Fin 64), W2 ⟨64 * p.val + h.val, by omega⟩ = (if p = q then (1 : EReal) else 0) * u2 h) :
    (∑ k : Fin 512, Ideal.logistic ((∑ j : Fin 256, X j * W1 j k) + B1 k) * W2 k) + B2
      = (∑ h : Fin 64, Ideal.logistic ((∑ d : Fin 32, xs q d * u1 d h) + c1 h) * u2 h) + B2 := by
  refine congrArg (· + B2) ?_
  rw [sum_fin_mul 8 64 (fun k : Fin 512 => Ideal.logistic ((∑ j : Fin 256, X j * W1 j k) + B1 k) * W2 k)]
  have inner : ∀ (p' : Fin 8) (h : Fin 64),
      (∑ j : Fin 256, X j * W1 j ⟨64 * p'.val + h.val, by omega⟩) = ∑ d : Fin 32, xs p' d * u1 d h := by
    intro p' h
    rw [sum_fin_mul 8 32 (fun j : Fin 256 => X j * W1 j ⟨64 * p'.val + h.val, by omega⟩)]
    simp only [hX, hW1]
    exact sum_delta p' (fun p d => xs p d) (fun d => u1 d h)
  simp only [inner, hB1, hW2]
  exact sum_delta q (fun p h => Ideal.logistic ((∑ d : Fin 32, xs p d * u1 d h) + c1 h)) (fun h => u2 h)

end Cert.MLP

end
-- ==== Proof.RFinal.lean ====
/-
  From the reference's blocks to its whole packed output array.

  The reference packs eight consecutive rows of the batch into one row of 256 features and runs the two-layer network
  with block-diagonal weights (eight copies of each weight on the diagonal) and biases repeated eight times. Grid point t
  reads rows 1024 t … 1024 t + 1023 of the packed input, the whole of the two packed weights and the two packed biases,
  and writes the same rows of the [32768, 128] packed output. Entry (y, 16 q + o) of what it writes is the network's
  output at row n = 8 (1024 t + y) + q, column o: a contraction against a block-diagonal matrix keeps the one diagonal
  block. The 32 row ranges tile the output, so after the last point the output array is `mlpPacked` of the five inputs.
-/
import proofs.«106375_g2000504021090499_pallasbulk_1237_19_alg».proof.Proof.Gen.ReferenceIdeal.Frame
import proofs.«106375_g2000504021090499_pallasbulk_1237_19_alg».proof.Proof.RefBody
import proofs.«106375_g2000504021090499_pallasbulk_1237_19_alg».proof.Proof.RefHost
import proofs.«106375_g2000504021090499_pallasbulk_1237_19_alg».proof.Proof.Spec
import proofs.«106375_g2000504021090499_pallasbulk_1237_19_alg».proof.Proof.Algebra
import Idealize.ShloMosaic.Lib.Pipeline.Value

noncomputable section

namespace Cert.ReferenceIdeal.RFinal

open Idealize.ShloMosaic Idealize.ShloMosaic.TcCoe Idealize.SL.Sem Idealize.ShloMosaic.ValueIdx
open Idealize.ShloMosaic.Pipeline (Dat)
open Cert.ReferenceIdeal Cert.ReferenceIdeal.Gen

variable (m : (ℓ : Loc nD τ sig) → Buf (Elt Ideal) ℓ)

theorem hz : (![0, 0] : Fin 2 → Nat) = fun _ => 0 := funext fun a => by fin_cases a <;> rfl

/-- The block indices over the grid: the packed input's block and the packed output's block move along axis 0 with the
    point; the packed weights and biases stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks, entry by entry -/

/-- Entry (y, j) of the packed input's block at point t is entry (1024 t + y, j) of the packed input. -/
theorem x_blk (c : Dev nD) (t : Fin cfg0.N) (y : Fin 1024) (j : Fin 256) (r : Fin 32768)
    (hr : r.val = 1024 * t.val + y.val) :
    (iblk m c 0 t : Vec Ideal S1024x256 .f32) (ix2 y j)
      = (V m c main_v0 : S32768x256.Idx → EReal) (ix2 r j) := by
  obtain ⟨e0, e1, -⟩ := idx_facts t
  unfold iblk
  rw [View.read_apply]
  show V m c main_v0 _ = V m c main_v0 _
  refine congrArg (V m c main_v0) ?_
  funext a
  apply Fin.ext
  match a with
  | ⟨0, _⟩ => show win0_0.index t 0 * 1024 + 1 * y.val = r.val; rw [e0, hr]; omega
  | ⟨1, _⟩ => show win0_0.index t 1 * 256 + 1 * j.val = j.val; rw [e1]; omega

/-- The first packed weight's block is the whole of it. -/
theorem w1_blk (c : Dev nD) (t : Fin cfg0.N) (j : Fin 256) (k : Fin 512) :
    (iblk m c 1 t : Vec Ideal S256x512 .f32) (ix2 j k)
      = (V m c main_v7 : S256x512.Idx → EReal) (ix2 j k) := by
  obtain ⟨-, -, e0, e1, -⟩ := idx_facts t
  unfold iblk
  rw [View.read_apply]
  show V m c main_v7 _ = V m c main_v7 _
  refine congrArg (V m c main_v7) ?_
  funext a
  apply Fin.ext
  match a with
  | ⟨0, _⟩ => show win0_1.index t 0 * 256 + 1 * j.val = j.val; rw [e0]; omega
  | ⟨1, _⟩ => show win0_1.index t 1 * 512 + 1 * k.val = k.val; rw [e1]; omega

/-- The first packed bias's block is the whole of it. -/
theorem b1_blk (c : Dev nD) (t : Fin cfg0.N) (k : Fin 512) :
    (iblk m c 2 t : Vec Ideal S1x512 .f32) (ix2 0 k)
      = (V m c main_v17 : S1x512.Idx → EReal) (ix2 0 k) := by
  obtain ⟨-, -, -, -, e0, e1, -⟩ := idx_facts t
  unfold iblk
  rw [View.read_apply]
  show V m c main_v17 _ = V m c main_v17 _
  refine congrArg (V m c main_v17) ?_
  funext a
  apply Fin.ext
  match a with
  | ⟨0, _⟩ => show win0_2.index t 0 * 1 + 1 * 0 = 0; rw [e0]
  | ⟨1, _⟩ => show win0_2.index t 1 * 512 + 1 * k.val = k.val; rw [e1]; omega

/-- The second packed weight's block is the whole of it. -/
theorem w2_blk (c : Dev nD) (t : Fin cfg0.N) (k : Fin 512) (l : Fin 128) :
    (iblk m c 3 t : Vec Ideal S512x128 .f32) (ix2 k l)
      = (V m c main_v14 : S512x128.Idx → EReal) (ix2 k l) := by
  obtain ⟨-, -, -, -, -, -, e0, e1, -⟩ := idx_facts t
  unfold iblk
  rw [View.read_apply]
  show V m c main_v14 _ = V m c main_v14 _
  refine congrArg (V m c main_v14) ?_
  funext a
  apply Fin.ext
  match a with
  | ⟨0, _⟩ => show win0_3.index t 0 * 512 + 1 * k.val = k.val; rw [e0]; omega
  | ⟨1, _⟩ => show win0_3.index t 1 * 128 + 1 * l.val = l.val; rw [e1]; omega

/-- The second packed bias's block is the whole of it. -/
theorem b2_blk (c : Dev nD) (t : Fin cfg0.N) (l : Fin 128) :
    (iblk m c 4 t : Vec Ideal S1x128 .f32) (ix2 0 l)
      = (V m c main_v20 : S1x128.Idx → EReal) (ix2 0 l) := by
  obtain ⟨-, -, -, -, -, -, -, -, e0, e1, -⟩ := idx_facts t
  unfold iblk
  rw [View.read_apply]
  show V m c main_v20 _ = V m c main_v20 _
  refine congrArg (V m c main_v20) ?_
  funext a
  apply Fin.ext
  match a with
  | ⟨0, _⟩ => show win0_4.index t 0 * 1 + 1 * 0 = 0; rw [e0]
  | ⟨1, _⟩ => show win0_4.index t 1 * 128 + 1 * l.val = l.val; rw [e1]; omega

/-! ## What a point stores, as the network's output -/

/-- If the five loaded blocks read the packed arrays of the five inputs at packed row r as stated — the input's eight
    rows side by side, the weights block-diagonal, the biases repeated —, the body's stored value at (y, 16 q + o) is the
    network's output at (8 r + q, o): both contractions against a block-diagonal matrix keep the diagonal block q. -/
theorem point_value (x0 : Vec Ideal S1024x256 .f32) (x1 : Vec Ideal S256x512 .f32) (x2 : Vec Ideal S1x512 .f32)
    (x3 : Vec Ideal S512x128 .f32) (x4 : Vec Ideal S1x128 .f32)
    (X : S262144x32.Idx → EReal) (W1 : S32x64.Idx → EReal) (B1 : S1x64.Idx → EReal) (W2 : S64x16.Idx → EReal)
    (B2 : S1x16.Idx → EReal) (y : Fin 1024) (q : Fin 8) (o : Fin 16) (r : Fin 32768)
    (h0 : ∀ (p : Fin 8) (d : Fin 32),
      x0 (ix2 y ⟨32 * p.val + d.val, by omega⟩) = X (ix2 ⟨8 * r.val + p.val, by omega⟩ d))
    (h1 : ∀ (p p' : Fin 8) (d : Fin 32) (h : Fin 64),
      x1 (ix2 ⟨32 * p.val + d.val, by omega⟩ ⟨64 * p'.val + h.val, by omega⟩)
        = (if p = p' then (1 : EReal) else 0) * W1 (ix2 d h))
    (h2 : ∀ (p' : Fin 8) (h : Fin 64), x2 (ix2 0 ⟨64 * p'.val + h.val, by omega⟩) = B1 (ix2 0 h))
    (h3 : ∀ (p : Fin 8) (h : Fin 64),
      x3 (ix2 ⟨64 * p.val + h.val, by omega⟩ ⟨16 * q.val + o.val, by omega⟩)
        = (if p = q then (1 : EReal) else 0) * W2 (ix2 h o))
    (h4 : x4 (ix2 0 ⟨16 * q.val + o.val, by omega⟩) = B2 (ix2 0 o)) :
    k0_pay1 (F := Ideal) x0 x1 x2 x3 x4 (ix2 y ⟨16 * q.val + o.val, by omega⟩)
      = Cert.MLP.mlpAt X W1 B1 W2 B2 ⟨8 * r.val + q.val, by omega⟩ o := by
  rw [RefBody.pay_apply, h4]
  unfold Cert.MLP.mlpAt
  exact Cert.MLP.packed_collapse (fun j => x0 (ix2 y j)) (fun j k => x1 (ix2 j k)) (fun k => x2 (ix2 0 k))
    (fun k => x3 (ix2 k ⟨16 * q.val + o.val, by omega⟩)) (B2 (ix2 0 o))
    (fun p d => X (ix2 ⟨8 * r.val + p.val, by omega⟩ d)) (fun d h => W1 (ix2 d h)) (fun h => B1 (ix2 0 h))
    (fun h => W2 (ix2 h o)) q h0 h1 h2 h3

/-- The packed output array after the run, as a function of the launch memory. -/
abbrev outP (c : Dev nD) : S32768x128.Idx → EReal :=
  Cert.MLP.mlpPacked (m ((c : Thread nD τ).loc main_arg0)) (m ((c : Thread nD τ).loc main_arg1))
    (m ((c : Thread nD τ).loc main_arg2)) (m ((c : Thread nD τ).loc main_arg3)) (m ((c : Thread nD τ).loc main_arg4))

/-- The packed output at (r, 16 q + o) is the network's output at (8 r + q, o): dividing 16 q + o by 16 gives q and
    leaves o. -/
theorem outP_apply (c : Dev nD) (r : Fin 32768) (q : Fin 8) (o : Fin 16) :
    outP m c (ix2 r ⟨16 * q.val + o.val, by omega⟩)
      = Cert.MLP.mlpAt (m ((c : Thread nD τ).loc main_arg0)) (m ((c : Thread nD τ).loc main_arg1))
          (m ((c : Thread nD τ).loc main_arg2)) (m ((c : Thread nD τ).loc main_arg3))
          (m ((c : Thread nD τ).loc main_arg4)) ⟨8 * r.val + q.val, by omega⟩ o := by
  have hq : (16 * q.val + o.val) / 16 = q.val := by omega
  have ho : (16 * q.val + o.val) % 16 = o.val := by omega
  unfold outP Cert.MLP.mlpPacked
  exact congrArg₂ (Cert.MLP.mlpAt _ _ _ _ _) (Fin.ext (by show 8 * r.val + (16 * q.val + o.val) / 16 = 8 * r.val + q.val; rw [hq]))
    (Fin.ext (by show (16 * q.val + o.val) % 16 = o.val; exact ho))

/-- What point t writes back is block t of that array. -/
theorem flushed_eq (c : Dev nD) (t : Fin cfg0.N) :
    (dats m 0 c).flushed 5 t = ((cfg0.win 5).blk t).view.read (Elt Ideal) (outP m c) := by
  show (cfg0.win 5).cut (grid0.coords t) ((dats m 0 c).after 5 t) = _
  rw [after0_5]
  unfold out0_5
  rw [View.canon_unit_zero hz]
  simp only [View.ld_unit_zero (S := S1024x256) hz, View.ld_unit_zero (S := S256x512) hz,
    View.ld_unit_zero (S := S1x512) hz, View.ld_unit_zero (S := S512x128) hz, View.ld_unit_zero (S := S1x128) hz]
  funext i
  obtain ⟨y, l, rfl⟩ : ∃ (y : Fin 1024) (l : Fin 128), i = ix2 y l := ⟨i 0, i 1, eq_ix2 i⟩
  have hN : cfg0.N = 32 := N_0
  have ht : t.val < 32 := hN ▸ t.isLt
  obtain ⟨r, hr⟩ : ∃ r : Fin 32768, r.val = 1024 * t.val + y.val :=
    ⟨⟨1024 * t.val + y.val, by have := y.isLt; omega⟩, rfl⟩
  obtain ⟨q, o, rfl⟩ : ∃ (q : Fin 8) (o : Fin 16), l = ⟨16 * q.val + o.val, by omega⟩ :=
    ⟨⟨l.val / 16, by have := l.isLt; omega⟩, ⟨l.val % 16, Nat.mod_lt _ (by decide)⟩, Fin.ext (by
      show l.val = 16 * (l.val / 16) + l.val % 16
      omega)⟩
  obtain ⟨-, -, -, -, -, -, -, -, -, -, e0, e1⟩ := idx_facts t
  have hemb : ((cfg0.win 5).blk t).view.emb (ix2 y (⟨16 * q.val + o.val, by omega⟩ : Fin 128))
      = (ix2 r (⟨16 * q.val + o.val, by omega⟩ : Fin 128) : S32768x128.Idx) := by
    funext a
    apply Fin.ext
    match a with
    | ⟨0, _⟩ => show win0_5.index t 0 * 1024 + 1 * y.val = r.val; rw [e0, hr]; omega
    | ⟨1, _⟩ => show win0_5.index t 1 * 128 + 1 * (16 * q.val + o.val) = 16 * q.val + o.val; rw [e1]; omega
  rw [View.read_apply, hemb, outP_apply m c r q o]
  exact point_value (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) y q o r
    (fun p d => (x_blk m c t y ⟨32 * p.val + d.val, by omega⟩ r hr).trans (RefHost.x_p m c r p d))
    (fun p p' d h => (w1_blk m c t ⟨32 * p.val + d.val, by omega⟩ ⟨64 * p'.val + h.val, by omega⟩).trans
      (RefHost.w1_p m c p p' d h))
    (fun p' h => (b1_blk m c t ⟨64 * p'.val + h.val, by omega⟩).trans (RefHost.b1_p m c p' h))
    (fun p h => (w2_blk m c t ⟨64 * p.val + h.val, by omega⟩ ⟨16 * q.val + o.val, by omega⟩).trans
      (RefHost.w2_p m c p q h o))
    ((b2_blk m c t ⟨16 * q.val + o.val, by omega⟩).trans (RefHost.b2_p m c q o))

/-! ## The blocks tile the output -/

theorem mem_blk (t : Fin cfg0.N) (i : S32768x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v21).slice (win0_5.rect t)).set ↔ _
  rw [View.set_slice_whole, Rect.mem_set_unit]
  exact Iff.rfl

/-- Row i₀ lies in the block of point i₀ / 1024. -/
theorem cover (i : S32768x128.Idx) :
    ∃ t : Fin cfg0.N, (cfg0.win 5).flush t = true ∧ i ∈ ((cfg0.win 5).blk t).view.set := by
  have hN : cfg0.N = 32 := N_0
  have hi0 : (i 0).val < 32768 := (i 0).isLt
  have hi1 : (i 1).val < 128 := (i 1).isLt
  obtain ⟨t, ht⟩ : ∃ t : Fin cfg0.N, t.val = (i 0).val / 1024 := ⟨⟨(i 0).val / 1024, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t 0 * 1024 ≤ (i 0).val ∧ (i 0).val < win0_5.index t 0 * 1024 + 1024; rw [e0, ht]; omega
  | ⟨1, _⟩ => show win0_5.index t 1 * 128 ≤ (i 1).val ∧ (i 1).val < win0_5.index t 1 * 128 + 128; rw [e1]; omega

/-- The packed output array after the last point. -/
theorem final (c : Dev nD) : (dats m 0 c).arrAt 5 cfg0.N = outP m c :=
  (dats m 0 c).arrAt_eq_of_cover 5 (outP m c) (fun t _ => flushed_eq m c t) cover

end Cert.ReferenceIdeal.RFinal

end
-- ==== Proof.RefTail.lean ====
import proofs.«106375_g2000504021090499_pallasbulk_1237_19_alg».proof.Proof.Spec
import Idealize.ShloMosaic.Lib.Pipeline.Value
import Idealize.ShloMosaic.Lib.ValueIdx

/-! # The reference's last reshape

The reference program computes its output packed, eight consecutive rows of the network's output side by side in one row
of 128 lanes, and its last operation reshapes the packed [32768, 128] array to [262144, 16]. A reshape keeps the
row-major position: entry (n, o) of the result sits at position 16 n + o, which in the packed array is row n / 8 and
lane 16 (n mod 8) + o; and the packed array holds there the network's output at row 8 (n / 8) + n mod 8 = n, column o. -/

noncomputable section

namespace Cert.MLP

open Idealize.ShloMosaic Idealize.ShloMosaic.ValueIdx

variable (x : (⟨2, ![262144, 32]⟩ : Shape).Idx → EReal) (w1 : (⟨2, ![32, 64]⟩ : Shape).Idx → EReal)
  (b1 : (⟨2, ![1, 64]⟩ : Shape).Idx → EReal) (w2 : (⟨2, ![64, 16]⟩ : Shape).Idx → EReal)
  (b2 : (⟨2, ![1, 16]⟩ : Shape).Idx → EReal)

/-- An entry of the network's output depends on its row and its column only through their numbers. -/
theorem mlpAt_congr {n n' : Fin 262144} {o o' : Fin 16} (hn : n.val = n'.val) (ho : o.val = o'.val) :
    mlpAt x w1 b1 w2 b2 n o = mlpAt x w1 b1 w2 b2 n' o' := by
  rw [Fin.ext hn, Fin.ext ho]

/-- The packed output reshaped to [262144, 16] is the network's output. -/
theorem reshape_packed (h : (⟨2, ![32768, 128]⟩ : Shape).ShapeCasts ⟨2, ![262144, 16]⟩) :
    shapeCast ⟨2, ![262144, 16]⟩ (mlpPacked x w1 b1 w2 b2) h = mlp x w1 b1 w2 b2 := by
  funext i
  obtain ⟨n, o, rfl⟩ : ∃ (n : Fin 262144) (o : Fin 16), i = ix2 n o := ⟨i 0, i 1, eq_ix2 i⟩
  refine (shapeCast_apply _ _ _
    (ix2 (⟨n.val / 8, by omega⟩ : Fin 32768) (⟨16 * (n.val % 8) + o.val, by omega⟩ : Fin 128)) ?_).trans ?_
  · rw [Shape.rowMajor_val_two, Shape.rowMajor_val_two]
    show n.val / 8 * 128 + (16 * (n.val % 8) + o.val) = n.val * 16 + o.val
    omega
  · show mlpAt x w1 b1 w2 b2 ⟨8 * (n.val / 8) + (16 * (n.val % 8) + o.val) / 16, _⟩ ⟨(16 * (n.val % 8) + o.val) % 16, _⟩
      = mlpAt x w1 b1 w2 b2 n o
    refine mlpAt_congr x w1 b1 w2 b2 ?_ ?_
    · show 8 * (n.val / 8) + (16 * (n.val % 8) + o.val) / 16 = n.val
      omega
    · show (16 * (n.val % 8) + o.val) % 16 = o.val
      omega

end Cert.MLP

end
-- ==== Proof.RRun.lean ====
/-
  The reference's whole program, read: after its pallas_call the host reshapes the packed [32768, 128] output to
  [262144, 16], so the result array holds the network's output `mlp` of the five argument arrays, which end as they
  were launched.
-/
import proofs.«106375_g2000504021090499_pallasbulk_1237_19_alg».proof.Proof.RFinal
import proofs.«106375_g2000504021090499_pallasbulk_1237_19_alg».proof.Proof.RefTail
import Idealize.ShloMosaic.Lib.StableHlo.Run

noncomputable section

namespace Cert.ReferenceIdeal.RRun

open Idealize.ShloMosaic Idealize.ShloMosaic.TcCoe Idealize.SL.Sem Idealize.ShloMosaic.ValueIdx
open Idealize.ShloMosaic.Pipeline (Dat)
open Cert.ReferenceIdeal Cert.ReferenceIdeal.Gen

variable (m : (ℓ : Loc nD τ sig) → Buf (Elt Ideal) ℓ) (ρ : Dev nD → PrngReg)

/-- The result array as a function of the launch memory. -/
abbrev result (c : Dev nD) : S262144x16.Idx → EReal :=
  Cert.MLP.mlp (m ((c : Thread nD τ).loc main_arg0)) (m ((c : Thread nD τ).loc main_arg1))
    (m ((c : Thread nD τ).loc main_arg2)) (m ((c : Thread nD τ).loc main_arg3)) (m ((c : Thread nD τ).loc main_arg4))

/-- What the host's last line leaves in the result buffer: the packed output, eight rows per packed row, unpacked. -/
theorem tail_eq (c : Dev nD) :
    Pipeline.afterTail₀ cfgs (dats m) 0 (V0 m) [hostOps1] c main_v22 = result m c := by
  refine Eq.trans ?_ (Cert.MLP.reshape_packed (m ((c : Thread nD τ).loc main_arg0)) (m ((c : Thread nD τ).loc main_arg1))
    (m ((c : Thread nD τ).loc main_arg2)) (m ((c : Thread nD τ).loc main_arg3)) (m ((c : Thread nD τ).loc main_arg4))
    shapeCasts_S32768x128_S262144x16)
  unfold Pipeline.afterTail₀
  show StableHlo.after hostOps1 _ (Proc.devRef .tc main_v22) = _
  after_results
  exact congrArg (fun v => shapeCast S262144x16 v shapeCasts_S32768x128_S262144x16)
    ((Pipeline.withArrays_arr spec0 launch0.win.arr_inj c _ _ 5).trans (RFinal.final m c))

/-- The run: every weakly fair execution ends with the result array at `result` and the arguments unchanged. -/
theorem run : θ_run defs (onTc (τ := τ) (main (F := Ideal))) ⟨m, fun _ => 0, ρ⟩ (fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v22 (Pipeline.mem_restRefs_of main_v22 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.ReferenceIdeal.RRun

end
-- ==== Proof.Finite.lean ====
/-
  The precondition read back: if the predicate "every entry of every input has absolute value below +∞" holds, then
  every entry of each of the five input arrays is a real number (neither +∞ nor -∞).
-/
import proofs.«106375_g2000504021090499_pallasbulk_1237_19_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Idealize.ShloMosaic.ValueIdx Cert.Pre_finite_inputs

variable [Cert.Pre_finite_inputs.Facts]
open Cert.Pre_finite_inputs.Facts

/-- The rank-0 shape has one index. -/
instance : Subsingleton S_.Idx := ⟨fun a b => funext fun d => d.elim0⟩

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The word of +∞. -/
theorem ofBits_inf : Ideal.ofBits .f32 0x7F800000#32 = ⊤ := by
  simp [Ideal.ofBits, Ideal.ieee]

/-- An entry at which |a| < +∞ compares true is a real number. -/
theorem elt_real {s : Shape} (a : FVec Ideal s .f32) (hb : S_.BroadcastsInDim s (![] : Fin 0 → Fin s.rank)) (i : s.Idx)
    (e : cmpf (F := Ideal) .olt (Host.absf a) (broadcastInDim s ![] hb (constant (F := Ideal) S_ .f32 0x7F800000#32)) i = 1#1) :
    ∃ r : ℝ, a i = (r : EReal) := by
  have e1 : Ideal.cmp .olt (max (a i) (-(a i))) (Ideal.ofBits .f32 0x7F800000#32) = 1#1 := e
  rw [ofBits_inf] at e1
  refine real_of_abs_lt_top (a i) ?_
  by_contra hlt
  rw [show Ideal.cmp .olt (max (a i) (-(a i))) ⊤ = 0#1 from by simp [Ideal.cmp, hlt]] at e1
  exact absurd e1 (by decide)

/-- Under the precondition every entry of every input array is a real number. -/
theorem real_of_pre (a0 : FVec Ideal S262144x32 .f32) (a1 : FVec Ideal S32x64 .f32) (a2 : FVec Ideal S1x64 .f32)
    (a3 : FVec Ideal S64x16 .f32) (a4 : FVec Ideal S1x16 .f32)
    (h : fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fun i => elt_real a0 _ i (Host.reduce_andi_all _ _ _ _ ix0 h0' i),
    fun i => elt_real a1 _ i (Host.reduce_andi_all _ _ _ _ ix0 h1 i),
    fun i => elt_real a2 _ i (Host.reduce_andi_all _ _ _ _ ix0 h2 i),
    fun i => elt_real a3 _ i (Host.reduce_andi_all _ _ _ _ ix0 h3 i),
    fun i => elt_real a4 _ i (Host.reduce_andi_all _ _ _ _ ix0 h4 i)⟩

end Cert.Pre_finite_inputs.Finite

end
-- ==== Proof.lean ====
/-
  A two-layer perceptron with a logistic hidden layer,  y = logistic(x W1 + b1) W2 + b2,  computed two ways.

  The kernel works on transposed data, with the batch along the lanes, and evaluates the logistic function through
  the hyperbolic tangent, logistic z = 1/2 tanh (z/2) + 1/2, the factors 1/2 folded into the small weight matrices
  and the constant part of the output, 1/2 (column sums of W2) + b2, added once per output column. The reference
  packs eight consecutive rows of x into one row, multiplies by block-diagonal copies kron(I_8, W1), kron(I_8, W2)
  of the weights, and unpacks.

  Read at exact extended-real arithmetic, the kernel's result array is `mlpT` of the five inputs (KBody, KHost,
  KFinal, KRun), the reference's is `mlp` (RefBody, RefHost, RFinal, RefTail, RRun: the off-diagonal blocks
  contribute exact zeros), and the two are equal whenever every input entry is a real number (Algebra), which is what
  the precondition says (Finite). Rounding the matrix products' operands to bf16 is the identity here, and nothing was
  rewritten on the way from the printed kernel to its idealization, so that conjunct is trivial.
-/
import proofs.«106375_g2000504021090499_pallasbulk_1237_19_alg».proof.Defs
import proofs.«106375_g2000504021090499_pallasbulk_1237_19_alg».proof.Proof.Gen.Kernel
import proofs.«106375_g2000504021090499_pallasbulk_1237_19_alg».proof.Proof.Gen.Kernel.Skeleton
import proofs.«106375_g2000504021090499_pallasbulk_1237_19_alg».proof.Proof.Gen.Kernel.Launch
import proofs.«106375_g2000504021090499_pallasbulk_1237_19_alg».proof.Proof.Gen.Kernel.Points
import proofs.«106375_g2000504021090499_pallasbulk_1237_19_alg».proof.Proof.Gen.Kernel.Frame
import proofs.«106375_g2000504021090499_pallasbulk_1237_19_alg».proof.Proof.Gen.KernelIdeal
import proofs.«106375_g2000504021090499_pallasbulk_1237_19_alg».proof.Proof.Gen.KernelIdeal.Skeleton
import proofs.«106375_g2000504021090499_pallasbulk_1237_19_alg».proof.Proof.Gen.KernelIdeal.Launch
import proofs.«106375_g2000504021090499_pallasbulk_1237_19_alg».proof.Proof.Gen.KernelIdeal.Points
import proofs.«106375_g2000504021090499_pallasbulk_1237_19_alg».proof.Proof.Gen.KernelIdeal.Frame
import proofs.«106375_g2000504021090499_pallasbulk_1237_19_alg».proof.Proof.Gen.ReferenceIdeal
import proofs.«106375_g2000504021090499_pallasbulk_1237_19_alg».proof.Proof.Gen.ReferenceIdeal.Skeleton
import proofs.«106375_g2000504021090499_pallasbulk_1237_19_alg».proof.Proof.Gen.ReferenceIdeal.Launch
import proofs.«106375_g2000504021090499_pallasbulk_1237_19_alg».proof.Proof.Gen.ReferenceIdeal.Points
import proofs.«106375_g2000504021090499_pallasbulk_1237_19_alg».proof.Proof.Gen.ReferenceIdeal.Frame
import proofs.«106375_g2000504021090499_pallasbulk_1237_19_alg».proof.Proof.Gen.Pre_finite_inputs
import Idealize.ShloMosaic.Adequacy
import Idealize.ShloMosaic.Init
import proofs.«106375_g2000504021090499_pallasbulk_1237_19_alg».proof.Proof.KRun
import proofs.«106375_g2000504021090499_pallasbulk_1237_19_alg».proof.Proof.RRun
import proofs.«106375_g2000504021090499_pallasbulk_1237_19_alg».proof.Proof.Algebra
import proofs.«106375_g2000504021090499_pallasbulk_1237_19_alg».proof.Proof.Finite

noncomputable section

namespace Cert.Proof

open Idealize.ShloMosaic Idealize.ShloMosaic.TcCoe Idealize.SL.Sem

/-- The word-level kernel terminates without a fault and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference. -/
theorem frame_ri : Cert.frame_ReferenceIdeal := fun m ρ _ => Cert.ReferenceIdeal.Gen.frame m ρ

/-- From memories that agree on the five inputs, all real by the precondition, both programs end with the
    network's output: the kernel's spelling of it equals the network's on real inputs, and the reference computes the
    network's own formula. -/
theorem algebraic : Cert.algebraic_KernelIdeal_ReferenceIdeal := by
  intro m ρ m' ρ' hpre hagree
  refine ⟨fun c => Cert.MLP.mlp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.KRun.run m ρ)
    obtain ⟨r0, r1, r2, r3, r4⟩ := Cert.Pre_finite_inputs.Finite.real_of_pre _ _ _ _ _ (hpre c)
    exact Cert.MLP.mlpT_eq_mlp _ _ _ _ _ r0 r1 r2 r3 r4
  · refine (θ_run Cert.ReferenceIdeal.defs _ _).mono (fun _ h c => ⟨(h c).1.trans ?_, (h c).2⟩)
      (Cert.ReferenceIdeal.RRun.run m' ρ')
    show Cert.MLP.mlp _ _ _ _ _ = Cert.MLP.mlp _ _ _ _ _
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
